-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.truncf_extf.Statement Cert.KernelIdeal.S200x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S2x2097152 : Shape := ⟨2, ![2, 2097152]⟩
abbrev S1x200 : Shape := ⟨2, ![1, 200]⟩
abbrev S200 : Shape := ⟨1, ![200]⟩
abbrev S200x200 : Shape := ⟨2, ![200, 200]⟩
abbrev S200x1 : Shape := ⟨2, ![200, 1]⟩
abbrev S1 : Shape := ⟨1, ![1]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S1x200 : S_.BroadcastsInDim S1x200 (![] : Fin 0 → Fin S1x200.rank)
  reducesTo_S1x200_S_d0_1 : S1x200.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S200x1 : S_.BroadcastsInDim S200x1 (![] : Fin 0 → Fin S200x1.rank)
  reducesTo_S200x1_S_d0_1 : S200x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S200 .f32) (main_arg16 : FVec F S200x1 .f32) (main_arg17 : FVec F S1 .f32) (main_v63 : IVec S_ 1) (main_v67 : IVec S_ 1) : IVec S_ 1 :=
  let main_v68 : IVec S_ 1 := andi main_v63 main_v67
  let main_v69 : FVec F S200 .f32 := Host.absf main_arg15
  let main_cst_26 : FVec F S_ .f32 := constant S_ .f32 0x7F800000#32
  let main_v70 : FVec F S200 .f32 := broadcastInDim S200 ![] bcast_S_S200 main_cst_26
  let main_v71 : IVec S200 1 := cmpf .olt main_v69 main_v70
  let main_c_27 : IVec S_ 1 := constantI S_ 1 1#1
  let main_v72 : IVec S_ 1 := (fun x v => Host.reduce IntOp.andi x v reducesTo_S200_S_d0 h_S_) main_v71 main_c_27
  let main_v73 : IVec S_ 1 := andi main_v68 main_v72
  let main_v74 : FVec F S200x1 .f32 := Host.absf main_arg16
  let main_cst_28 : FVec F S_ .f32 := constant S_ .f32 0x7F800000#32
  let main_v75 : FVec F S200x1 .f32 := broadcastInDim S200x1 ![] bcast_S_S200x1 main_cst_28
  let main_v76 : IVec S200x1 1 := cmpf .olt main_v74 main_v75
  let main_c_29 : IVec S_ 1 := constantI S_ 1 1#1
  let main_v77 : IVec S_ 1 := (fun x v => Host.reduce IntOp.andi x v reducesTo_S200x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S200x200 .f32) (main_arg13 : FVec F S200 .f32) (main_arg14 : FVec F S200x200 .f32) (main_arg15 : FVec F S200 .f32) (main_arg16 : FVec F S200x1 .f32) (main_arg17 : FVec F S1 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S200x200 .f32 := Host.absf main_arg12
  let main_cst_20 : FVec F S_ .f32 := constant S_ .f32 0x7F800000#32
  let main_v55 : FVec F S200x200 .f32 := broadcastInDim S200x200 ![] bcast_S_S200x200 main_cst_20
  let main_v56 : IVec S200x200 1 := cmpf .olt main_v54 main_v55
  let main_c_21 : IVec S_ 1 := constantI S_ 1 1#1
  let main_v57 : IVec S_ 1 := (fun x v => Host.reduce IntOp.andi x v reducesTo_S200x200_S_d0_1 h_S_) main_v56 main_c_21
  let main_v58 : IVec S_ 1 := andi main_v53 main_v57
  let main_v59 : FVec F S200 .f32 := Host.absf main_arg13
  let main_cst_22 : FVec F S_ .f32 := constant S_ .f32 0x7F800000#32
  let main_v60 : FVec F S200 .f32 := broadcastInDim S200 ![] bcast_S_S200 main_cst_22
  let main_v61 : IVec S200 1 := cmpf .olt main_v59 main_v60
  let main_c_23 : IVec S_ 1 := constantI S_ 1 1#1
  let main_v62 : IVec S_ 1 := (fun x v => Host.reduce IntOp.andi x v reducesTo_S200_S_d0 h_S_) main_v61 main_c_23
  let main_v63 : IVec S_ 1 := andi main_v58 main_v62
  let main_v64 : FVec F S200x200 .f32 := Host.absf main_arg14
  let main_cst_24 : FVec F S_ .f32 := constant S_ .f32 0x7F800000#32
  let main_v65 : FVec F S200x200 .f32 := broadcastInDim S200x200 ![] bcast_S_S200x200 main_cst_24
  let main_v66 : IVec S200x200 1 := cmpf .olt main_v64 main_v65
  let main_c_25 : IVec S_ 1 := constantI S_ 1 1#1
  let main_v67 : IVec S_ 1 := (fun x v => Host.reduce IntOp.andi x v reducesTo_S200x200_S_d0_1 h_S_) main_v66 main_c_25
  fn_part4 (F := F) main_arg15 main_arg16 main_arg17 main_v63 main_v67

def fn_part2 {F : FTy → Type} [FloatOps F] (main_arg8 : FVec F S200x200 .f32) (main_arg9 : FVec F S200 .f32) (main_arg10 : FVec F S200x200 .f32) (main_arg11 : FVec F S200 .f32) (main_arg12 : FVec F S200x200 .f32) (main_arg13 : FVec F S200 .f32) (main_arg14 : FVec F S200x200 .f32) (main_arg15 : FVec F S200 .f32) (main_arg16 : FVec F S200x1 .f32) (main_arg17 : FVec F S1 .f32) (main_v33 : IVec S_ 1) : IVec S_ 1 :=
  let main_v34 : FVec F S200x200 .f32 := Host.absf main_arg8
  let main_cst_12 : FVec F S_ .f32 := constant S_ .f32 0x7F800000#32
  let main_v35 : FVec F S200x200 .f32 := broadcastInDim S200x200 ![] bcast_S_S200x200 main_cst_12
  let main_v36 : IVec S200x200 1 := cmpf .olt main_v34 main_v35
  let main_c_13 : IVec S_ 1 := constantI S_ 1 1#1
  let main_v37 : IVec S_ 1 := (fun x v => Host.reduce IntOp.andi x v reducesTo_S200x200_S_d0_1 h_S_) main_v36 main_c_13
  let main_v38 : IVec S_ 1 := andi main_v33 main_v37
  let main_v39 : FVec F S200 .f32 := Host.absf main_arg9
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S200x200 .f32 := Host.absf main_arg10
  let main_cst_16 : FVec F S_ .f32 := constant S_ .f32 0x7F800000#32
  let main_v45 : FVec F S200x200 .f32 := broadcastInDim S200x200 ![] bcast_S_S200x200 main_cst_16
  let main_v46 : IVec S200x200 1 := cmpf .olt main_v44 main_v45
  let main_c_17 : IVec S_ 1 := constantI S_ 1 1#1
  let main_v47 : IVec S_ 1 := (fun x v => Host.reduce IntOp.andi x v reducesTo_S200x200_S_d0_1 h_S_) main_v46 main_c_17
  let main_v48 : IVec S_ 1 := andi main_v43 main_v47
  let main_v49 : FVec F S200 .f32 := Host.absf main_arg11
  let main_cst_18 : FVec F S_ .f32 := constant S_ .f32 0x7F800000#32
  let main_v50 : FVec F S200 .f32 := broadcastInDim S200 ![] bcast_S_S200 main_cst_18
  fn_part3 (F := F) main_arg12 main_arg13 main_arg14 main_arg15 main_arg16 main_arg17 main_v48 main_v49 main_v50

def fn_part1 {F : FTy → Type} [FloatOps F] (main_arg5 : FVec F S200 .f32) (main_arg6 : FVec F S200x200 .f32) (main_arg7 : FVec F S200 .f32) (main_arg8 : FVec F S200x200 .f32) (main_arg9 : FVec F S200 .f32) (main_arg10 : FVec F S200x200 .f32) (main_arg11 : FVec F S200 .f32) (main_arg12 : FVec F S200x200 .f32) (main_arg13 : FVec F S200 .f32) (main_arg14 : FVec F S200x200 .f32) (main_arg15 : FVec F S200 .f32) (main_arg16 : FVec F S200x1 .f32) (main_arg17 : FVec F S1 .f32) (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  let main_v19 : FVec F S200 .f32 := Host.absf main_arg5
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200x200 .f32 := Host.absf main_arg6
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200 .f32 := Host.absf main_arg7
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S262144x1 .f32) (main_arg1 : IVec S2x2097152 32) (main_arg2 : FVec F S1x200 .f32) (main_arg3 : FVec F S200 .f32) (main_arg4 : FVec F S200x200 .f32) (main_arg5 : FVec F S200 .f32) (main_arg6 : FVec F S200x200 .f32) (main_arg7 : FVec F S200 .f32) (main_arg8 : FVec F S200x200 .f32) (main_arg9 : FVec F S200 .f32) (main_arg10 : FVec F S200x200 .f32) (main_arg11 : FVec F S200 .f32) (main_arg12 : FVec F S200x200 .f32) (main_arg13 : FVec F S200 .f32) (main_arg14 : FVec F S200x200 .f32) (main_arg15 : FVec F S200 .f32) (main_arg16 : FVec F S200x1 .f32) (main_arg17 : FVec F S1 .f32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S1x200 .f32 := Host.absf main_arg2
  let main_cst_0 : FVec F S_ .f32 := constant S_ .f32 0x7F800000#32
  let main_v5 : FVec F S1x200 .f32 := broadcastInDim S1x200 ![] bcast_S_S1x200 main_cst_0
  let main_v6 : IVec S1x200 1 := cmpf .olt main_v4 main_v5
  let main_c_1 : IVec S_ 1 := constantI S_ 1 1#1
  let main_v7 : IVec S_ 1 := (fun x v => Host.reduce IntOp.andi x v reducesTo_S1x200_S_d0_1 h_S_) main_v6 main_c_1
  let main_v8 : IVec S_ 1 := andi main_v3 main_v7
  let main_v9 : FVec F S200 .f32 := Host.absf main_arg3
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S200x200 .f32 := Host.absf main_arg4
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S262144x1 : Shape := ⟨2, ![262144, 1]⟩
abbrev S2x2097152 : Shape := ⟨2, ![2, 2097152]⟩
abbrev S1x200 : Shape := ⟨2, ![1, 200]⟩
abbrev S200 : Shape := ⟨1, ![200]⟩
abbrev S200x200 : Shape := ⟨2, ![200, 200]⟩
abbrev S200x1 : Shape := ⟨2, ![200, 1]⟩
abbrev S1 : Shape := ⟨1, ![1]⟩
abbrev S1x2097152 : Shape := ⟨2, ![1, 2097152]⟩
abbrev S2097152 : Shape := ⟨1, ![2097152]⟩
abbrev S262144 : Shape := ⟨1, ![262144]⟩
abbrev S2359296 : Shape := ⟨1, ![2359296]⟩
abbrev S_ : Shape := ⟨0, ![]⟩
abbrev S2359296x1 : Shape := ⟨2, ![2359296, 1]⟩
abbrev S1x262144 : Shape := ⟨2, ![1, 262144]⟩
abbrev S1x1 : Shape := ⟨2, ![1, 1]⟩
abbrev S1x8192 : Shape := ⟨2, ![1, 8192]⟩
abbrev S200x8192 : Shape := ⟨2, ![200, 8192]⟩
abbrev S8192 : Shape := ⟨1, ![8192]⟩

abbrev nBuf : Space → Nat
  | .hbm => 93
  | .vmem => 20
  | .smem => 0
  | _ => 0

abbrev bufTy : (tb : Table) → Fin (tcTables nBuf tb) → BufTy
  | .hbm, ⟨0, _⟩ => ⟨S262144x1, .f32⟩
  | .hbm, ⟨1, _⟩ => ⟨S2x2097152, .i32⟩
  | .hbm, ⟨2, _⟩ => ⟨S1x200, .f32⟩
  | .hbm, ⟨3, _⟩ => ⟨S200, .f32⟩
  | .hbm, ⟨4, _⟩ => ⟨S200x200, .f32⟩
  | .hbm, ⟨5, _⟩ => ⟨S200, .f32⟩
  | .hbm, ⟨6, _⟩ => ⟨S200x200, .f32⟩
  | .hbm, ⟨7, _⟩ => ⟨S200, .f32⟩
  | .hbm, ⟨8, _⟩ => ⟨S200x200, .f32⟩
  | .hbm, ⟨9, _⟩ => ⟨S200, .f32⟩
  | .hbm, ⟨10, _⟩ => ⟨S200x200, .f32⟩
  | .hbm, ⟨11, _⟩ => ⟨S200, .f32⟩
  | .hbm, ⟨12, _⟩ => ⟨S200x200, .f32⟩
  | .hbm, ⟨13, _⟩ => ⟨S200, .f32⟩
  | .hbm, ⟨14, _⟩ => ⟨S200x200, .f32⟩
  | .hbm, ⟨15, _⟩ => ⟨S200, .f32⟩
  | .hbm, ⟨16, _⟩ => ⟨S200x1, .f32⟩
  | .hbm, ⟨17, _⟩ => ⟨S1, .f32⟩
  | .hbm, ⟨18, _⟩ => ⟨S1x2097152, .i32⟩
  | .hbm, ⟨19, _⟩ => ⟨S2097152, .i32⟩
  | .hbm, ⟨20, _⟩ => ⟨S1x2097152, .i32⟩
  | .hbm, ⟨21, _⟩ => ⟨S2097152, .i32⟩
  | .hbm, ⟨22, _⟩ => ⟨S262144, .i32⟩
  | .hbm, ⟨23, _⟩ => ⟨S2359296, .i32⟩
  | .hbm, ⟨24, _⟩ => ⟨S2359296, .i32⟩
  | .hbm, ⟨25, _⟩ => ⟨S_, .f32⟩
  | .hbm, ⟨26, _⟩ => ⟨S2359296, .f32⟩
  | .hbm, ⟨27, _⟩ => ⟨S_, .f32⟩
  | .hbm, ⟨28, _⟩ => ⟨S262144, .f32⟩
  | .hbm, ⟨29, _⟩ => ⟨S2359296x1, .i32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S262144, .f32⟩
  | .hbm, ⟨34, _⟩ => ⟨S262144, .f32⟩
  | .hbm, ⟨35, _⟩ => ⟨S_, .i32⟩
  | .hbm, ⟨36, _⟩ => ⟨S2359296, .i32⟩
  | .hbm, ⟨37, _⟩ => ⟨S2359296, .i1⟩
  | .hbm, ⟨38, _⟩ => ⟨S_, .i32⟩
  | .hbm, ⟨39, _⟩ => ⟨S2359296, .i32⟩
  | .hbm, ⟨40, _⟩ => ⟨S2359296, .i32⟩
  | .hbm, ⟨41, _⟩ => ⟨S2359296, .i32⟩
  | .hbm, ⟨42, _⟩ => ⟨S2359296x1, .i32⟩
  | .hbm, ⟨43, _⟩ => ⟨S2359296, .f32⟩
  | .hbm, ⟨44, _⟩ => ⟨S_, .i32⟩
  | .hbm, ⟨45, _⟩ => ⟨S2359296, .i32⟩
  | .hbm, ⟨46, _⟩ => ⟨S2359296, .i1⟩
  | .hbm, ⟨47, _⟩ => ⟨S_, .i32⟩
  | .hbm, ⟨48, _⟩ => ⟨S2359296, .i32⟩
  | .hbm, ⟨49, _⟩ => ⟨S2359296, .i32⟩
  | .hbm, ⟨50, _⟩ => ⟨S2359296, .i32⟩
  | .hbm, ⟨51, _⟩ => ⟨S2359296x1, .i32⟩
  | .hbm, ⟨52, _⟩ => ⟨S2359296, .f32⟩
  | .hbm, ⟨53, _⟩ => ⟨S2359296, .f32⟩
  | .hbm, ⟨54, _⟩ => ⟨S2359296x1, .f32⟩
  | .hbm, ⟨55, _⟩ => ⟨S_, .i32⟩
  | .hbm, ⟨56, _⟩ => ⟨S2359296, .i32⟩
  | .hbm, ⟨57, _⟩ => ⟨S2359296, .i1⟩
  | .hbm, ⟨58, _⟩ => ⟨S_, .i32⟩
  | .hbm, ⟨59, _⟩ => ⟨S2359296, .i32⟩
  | .hbm, ⟨60, _⟩ => ⟨S2359296, .i32⟩
  | .hbm, ⟨61, _⟩ => ⟨S2359296, .i32⟩
  | .hbm, ⟨62, _⟩ => ⟨S2359296x1, .i32⟩
  | .hbm, ⟨63, _⟩ => ⟨S2359296x1, .f32⟩
  | .hbm, ⟨64, _⟩ => ⟨S2359296x1, .f32⟩
  | .hbm, ⟨65, _⟩ => ⟨S_, .f32⟩
  | .hbm, ⟨66, _⟩ => ⟨S262144x1, .f32⟩
  | .hbm, ⟨67, _⟩ => ⟨S2359296x1, .i32⟩
  | .hbm, ⟨68, _⟩ => ⟨S262144x1, .f32⟩
  | .hbm, ⟨69, _⟩ => ⟨S1x262144, .f32⟩
  | .hbm, ⟨70, _⟩ => ⟨S200x1, .f32⟩
  | .hbm, ⟨71, _⟩ => ⟨S200x200, .f32⟩
  | .hbm, ⟨72, _⟩ => ⟨S200x200, .bf16⟩
  | .hbm, ⟨73, _⟩ => ⟨S200x200, .f32⟩
  | .hbm, ⟨74, _⟩ => ⟨S200x200, .bf16⟩
  | .hbm, ⟨75, _⟩ => ⟨S200x200, .f32⟩
  | .hbm, ⟨76, _⟩ => ⟨S200x200, .bf16⟩
  | .hbm, ⟨77, _⟩ => ⟨S200x200, .f32⟩
  | .hbm, ⟨78, _⟩ => ⟨S200x200, .bf16⟩
  | .hbm, ⟨79, _⟩ => ⟨S200x200, .f32⟩
  | .hbm, ⟨80, _⟩ => ⟨S200x200, .bf16⟩
  | .hbm, ⟨81, _⟩ => ⟨S200x200, .f32⟩
  | .hbm, ⟨82, _⟩ => ⟨S200x200, .bf16⟩
  | .hbm, ⟨83, _⟩ => ⟨S200x1, .f32⟩
  | .hbm, ⟨84, _⟩ => ⟨S200x1, .f32⟩
  | .hbm, ⟨85, _⟩ => ⟨S200x1, .f32⟩
  | .hbm, ⟨86, _⟩ => ⟨S200x1, .f32⟩
  | .hbm, ⟨87, _⟩ => ⟨S200x1, .f32⟩
  | .hbm, ⟨88, _⟩ => ⟨S200x1, .f32⟩
  | .hbm, ⟨89, _⟩ => ⟨S200x1, .f32⟩
  | .hbm, ⟨90, _⟩ => ⟨S1x1, .f32⟩
  | .hbm, ⟨91, _⟩ => ⟨S1x262144, .f32⟩
  | .hbm, ⟨92, _⟩ => ⟨S262144x1, .f32⟩
  | .local _ .vmem, ⟨0, _⟩ => ⟨S1x8192, .f32⟩
  | .local _ .vmem, ⟨1, _⟩ => ⟨S1x8192, .f32⟩
  | .local _ .vmem, ⟨2, _⟩ => ⟨S200x1, .f32⟩
  | .local _ .vmem, ⟨3, _⟩ => ⟨S200x200, .bf16⟩
  | .local _ .vmem, ⟨4, _⟩ => ⟨S200x200, .bf16⟩
  | .local _ .vmem, ⟨5, _⟩ => ⟨S200x200, .bf16⟩
  | .local _ .vmem, ⟨6, _⟩ => ⟨S200x200, .bf16⟩
  | .local _ .vmem, ⟨7, _⟩ => ⟨S200x200, .bf16⟩
  | .local _ .vmem, ⟨8, _⟩ => ⟨S200x200, .bf16⟩
  | .local _ .vmem, ⟨9, _⟩ => ⟨S200x1, .f32⟩
  | .local _ .vmem, ⟨10, _⟩ => ⟨S200x1, .f32⟩
  | .local _ .vmem, ⟨11, _⟩ => ⟨S200x1, .f32⟩
  | .local _ .vmem, ⟨12, _⟩ => ⟨S200x1, .f32⟩
  | .local _ .vmem, ⟨13, _⟩ => ⟨S200x1, .f32⟩
  | .local _ .vmem, ⟨14, _⟩ => ⟨S200x1, .f32⟩
  | .local _ .vmem, ⟨15, _⟩ => ⟨S200x1, .f32⟩
  | .local _ .vmem, ⟨16, _⟩ => ⟨S200x1, .f32⟩
  | .local _ .vmem, ⟨17, _⟩ => ⟨S1x1, .f32⟩
  | .local _ .vmem, ⟨18, _⟩ => ⟨S1x8192, .f32⟩
  | .local _ .vmem, ⟨19, _⟩ => ⟨S1x8192, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x200 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S200x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S200x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S200x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S200x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S200x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S200x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x8192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  concatenates_S2097152_S262144_S2359296_d0 : Shape.Concatenates [S2097152, S262144] S2359296 0
  bcast_S_S2359296 : S_.BroadcastsInDim S2359296 (![] : Fin 0 → Fin S2359296.rank)
  bcast_S_S262144 : S_.BroadcastsInDim S262144 (![] : Fin 0 → Fin S262144.rank)
  bcast_S2359296_S2359296x1_0 : S2359296.BroadcastsInDim S2359296x1 (![0] : Fin 1 → Fin S2359296x1.rank)
  bcast_S_S262144x1 : S_.BroadcastsInDim S262144x1 (![] : Fin 0 → Fin S262144x1.rank)
  shapeCasts_S262144x1_S1x262144 : S262144x1.ShapeCasts S1x262144
  transposes_S1x200_S200x1_1_0 : S1x200.Transposes [1, 0] S200x1
  transposes_S200x200_S200x200_1_0 : S200x200.Transposes [1, 0] S200x200
  bitsLt_bf16_f32 : FTy.bits .bf16 < FTy.bits .f32
  shapeCasts_S200_S200x1 : S200.ShapeCasts S200x1
  shapeCasts_S1_S1x1 : S1.ShapeCasts S1x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x8192 : S200x1.Broadcasts S200x8192
  broadcasts_S1x8192_S200x8192 : S1x8192.Broadcasts S200x8192
  inb_S200x200_S200x200_0_0 : ∀ a, (![0, 0] : Fin 2 → Nat) a + S200x200.size a ≤ S200x200.size a
  h_S200x200 : 0 < S200x200.numel
  shapeCasts_S200x200_S200x200 : S200x200.ShapeCasts S200x200
  reduces_S200x8192_S8192 : S200x8192.Reduces [0] S8192
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  shapeCasts_S1x262144_S262144x1 : S1x262144.ShapeCasts S262144x1
  scatter_S262144_S2359296x1_S2359296_n_0_0_1_wf : ScatterDims.WF S262144 S2359296x1 S2359296 [] [0] [0] 1
  gather_S262144_S2359296x1_S2359296_n_0_n_n_0_1_1_wf : GatherDims.WF S262144 S2359296x1 S2359296 [] [0] [] [0] [] 1 ![1]
  gather_S262144x1_S2359296x1_S2359296x1_1_0_n_n_0_1_11_wf : GatherDims.WF S262144x1 S2359296x1 S2359296x1 [1] [0] [] [0] [] 1 ![1, 1]
  scatter_S262144x1_S2359296x1_S2359296x1_1_0_0_1_wf : ScatterDims.WF S262144x1 S2359296x1 S2359296x1 [1] [0] [0] 1
  dot_S200x200_S200x8192_S200x8192_1_0_0_1_n_n_wf : DotDims.WF S200x200 S200x8192 S200x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x262144.size a
  hwx0_0 : ∀ i : grid0.Coords, EltTy.bits .f32 = 32 ∨ (Rect.block (s := S1x262144) S1x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S200x1.size a
  hwx0_1 : ∀ i : grid0.Coords, EltTy.bits .f32 = 32 ∨ (Rect.block (s := S200x1) S200x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x200.size a ≤ S200x200.size a
  hwx0_2 : ∀ i : grid0.Coords, EltTy.bits .bf16 = 32 ∨ (Rect.block (s := S200x200) S200x200.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x200.size a ≤ S200x200.size a
  hwx0_3 : ∀ i : grid0.Coords, EltTy.bits .bf16 = 32 ∨ (Rect.block (s := S200x200) S200x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x200.size a ≤ S200x200.size a
  hwx0_4 : ∀ i : grid0.Coords, EltTy.bits .bf16 = 32 ∨ (Rect.block (s := S200x200) S200x200.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x200.size a ≤ S200x200.size a
  hwx0_5 : ∀ i : grid0.Coords, EltTy.bits .bf16 = 32 ∨ (Rect.block (s := S200x200) S200x200.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x200.size a ≤ S200x200.size a
  hwx0_6 : ∀ i : grid0.Coords, EltTy.bits .bf16 = 32 ∨ (Rect.block (s := S200x200) S200x200.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200x200.size a ≤ S200x200.size a
  hwx0_7 : ∀ i : grid0.Coords, EltTy.bits .bf16 = 32 ∨ (Rect.block (s := S200x200) S200x200.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200x1.size a ≤ S200x1.size a
  hwx0_8 : ∀ i : grid0.Coords, EltTy.bits .f32 = 32 ∨ (Rect.block (s := S200x1) S200x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S200x1.size a ≤ S200x1.size a
  hwx0_9 : ∀ i : grid0.Coords, EltTy.bits .f32 = 32 ∨ (Rect.block (s := S200x1) S200x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S200x1.size a ≤ S200x1.size a
  hwx0_10 : ∀ i : grid0.Coords, EltTy.bits .f32 = 32 ∨ (Rect.block (s := S200x1) S200x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S200x1.size a ≤ S200x1.size a
  hwx0_11 : ∀ i : grid0.Coords, EltTy.bits .f32 = 32 ∨ (Rect.block (s := S200x1) S200x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S200x1.size a ≤ S200x1.size a
  hwx0_12 : ∀ i : grid0.Coords, EltTy.bits .f32 = 32 ∨ (Rect.block (s := S200x1) S200x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S200x1.size a ≤ S200x1.size a
  hwx0_13 : ∀ i : grid0.Coords, EltTy.bits .f32 = 32 ∨ (Rect.block (s := S200x1) S200x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S200x1.size a ≤ S200x1.size a
  hwx0_14 : ∀ i : grid0.Coords, EltTy.bits .f32 = 32 ∨ (Rect.block (s := S200x1) S200x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S200x1.size a ≤ S200x1.size a
  hwx0_15 : ∀ i : grid0.Coords, EltTy.bits .f32 = 32 ∨ (Rect.block (s := S200x1) S200x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x8192.size a ≤ S1x262144.size a
  hwx0_17 : ∀ i : grid0.Coords, EltTy.bits .f32 = 32 ∨ (Rect.block (s := S1x262144) S1x8192.size (cc0_transform_17 i) (hinb0_17 i)).WholeWords (EltTy.packing .f32)

variable [Facts₀]

def scatter_S262144_S2359296x1_S2359296_n_0_0_1 : ScatterDims S262144 S2359296x1 S2359296 where
  updateWindowDims := []
  insertedWindowDims := [0]
  scatterDimsToOperandDims := [0]
  indexVectorDim := 1
  wf := scatter_S262144_S2359296x1_S2359296_n_0_0_1_wf
def gather_S262144_S2359296x1_S2359296_n_0_n_n_0_1_1 : GatherDims S262144 S2359296x1 S2359296 where
  offsetDims := []
  collapsedSliceDims := [0]
  operandBatchingDims := []
  startIndicesBatchingDims := []
  startIndexMap := [0]
  indexVectorDim := 1
  sliceSizes := ![1]
  wf := gather_S262144_S2359296x1_S2359296_n_0_n_n_0_1_1_wf
def gather_S262144x1_S2359296x1_S2359296x1_1_0_n_n_0_1_11 : GatherDims S262144x1 S2359296x1 S2359296x1 where
  offsetDims := [1]
  collapsedSliceDims := [0]
  operandBatchingDims := []
  startIndicesBatchingDims := []
  startIndexMap := [0]
  indexVectorDim := 1
  sliceSizes := ![1, 1]
  wf := gather_S262144x1_S2359296x1_S2359296x1_1_0_n_n_0_1_11_wf
def scatter_S262144x1_S2359296x1_S2359296x1_1_0_0_1 : ScatterDims S262144x1 S2359296x1 S2359296x1 where
  updateWindowDims := [1]
  insertedWindowDims := [0]
  scatterDimsToOperandDims := [0]
  indexVectorDim := 1
  wf := scatter_S262144x1_S2359296x1_S2359296x1_1_0_0_1_wf
def dot_S200x200_S200x8192_S200x8192_1_0_0_1_n_n : DotDims S200x200 S200x8192 S200x8192 where
  lhsContracting := [1]
  rhsContracting := [0]
  lhsNonContracting := [0]
  rhsNonContracting := [1]
  lhsBatch := []
  rhsBatch := []
  wf := dot_S200x200_S200x8192_S200x8192_1_0_0_1_n_n_wf

abbrev win0_0 : Pipeline.Window sig grid0 :=
  Pipeline.Window.ofSpec (Memref.whole main_v41) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S200x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S200x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S200x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S200x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S200x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S200x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v54) S200x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S200x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v55) S200x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v56) S200x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v57) S200x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v58) S200x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v59) S200x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v60) S200x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v61) S200x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v62) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v63) S1x8192.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S262144x1 : Shape := ⟨2, ![262144, 1]⟩
abbrev S2x2097152 : Shape := ⟨2, ![2, 2097152]⟩
abbrev S1x200 : Shape := ⟨2, ![1, 200]⟩
abbrev S200 : Shape := ⟨1, ![200]⟩
abbrev S200x200 : Shape := ⟨2, ![200, 200]⟩
abbrev S200x1 : Shape := ⟨2, ![200, 1]⟩
abbrev S1 : Shape := ⟨1, ![1]⟩
abbrev S1x2097152 : Shape := ⟨2, ![1, 2097152]⟩
abbrev S2097152 : Shape := ⟨1, ![2097152]⟩
abbrev S262144 : Shape := ⟨1, ![262144]⟩
abbrev S2359296 : Shape := ⟨1, ![2359296]⟩
abbrev S_ : Shape := ⟨0, ![]⟩
abbrev S2359296x1 : Shape := ⟨2, ![2359296, 1]⟩
abbrev S262144x200 : Shape := ⟨2, ![262144, 200]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S262144x1, .f32⟩
  | 1 => ⟨S2x2097152, .i32⟩
  | 2 => ⟨S1x200, .f32⟩
  | 3 => ⟨S200, .f32⟩
  | 4 => ⟨S200x200, .f32⟩
  | 5 => ⟨S200, .f32⟩
  | 6 => ⟨S200x200, .f32⟩
  | 7 => ⟨S200, .f32⟩
  | 8 => ⟨S200x200, .f32⟩
  | 9 => ⟨S200, .f32⟩
  | 10 => ⟨S200x200, .f32⟩
  | 11 => ⟨S200, .f32⟩
  | 12 => ⟨S200x200, .f32⟩
  | 13 => ⟨S200, .f32⟩
  | 14 => ⟨S200x200, .f32⟩
  | 15 => ⟨S200, .f32⟩
  | 16 => ⟨S200x1, .f32⟩
  | 17 => ⟨S1, .f32⟩
  | 18 => ⟨S1x2097152, .i32⟩
  | 19 => ⟨S2097152, .i32⟩
  | 20 => ⟨S1x2097152, .i32⟩
  | 21 => ⟨S2097152, .i32⟩
  | 22 => ⟨S262144, .i32⟩
  | 23 => ⟨S2359296, .i32⟩
  | 24 => ⟨S2359296, .i32⟩
  | 25 => ⟨S_, .f32⟩
  | 26 => ⟨S2359296, .f32⟩
  | 27 => ⟨S_, .f32⟩
  | 28 => ⟨S262144, .f32⟩
  | 29 => ⟨S2359296x1, .i32⟩
  | 30 => ⟨S262144, .f32⟩
  | 31 => ⟨S_, .f32⟩
  | 32 => ⟨S262144, .f32⟩
  | 33 => ⟨S262144, .f32⟩
  | 34 => ⟨S262144, .f32⟩
  | 35 => ⟨S_, .i32⟩
  | 36 => ⟨S2359296, .i32⟩
  | 37 => ⟨S2359296, .i1⟩
  | 38 => ⟨S_, .i32⟩
  | 39 => ⟨S2359296, .i32⟩
  | 40 => ⟨S2359296, .i32⟩
  | 41 => ⟨S2359296, .i32⟩
  | 42 => ⟨S2359296x1, .i32⟩
  | 43 => ⟨S2359296, .f32⟩
  | 44 => ⟨S_, .i32⟩
  | 45 => ⟨S2359296, .i32⟩
  | 46 => ⟨S2359296, .i1⟩
  | 47 => ⟨S_, .i32⟩
  | 48 => ⟨S2359296, .i32⟩
  | 49 => ⟨S2359296, .i32⟩
  | 50 => ⟨S2359296, .i32⟩
  | 51 => ⟨S2359296x1, .i32⟩
  | 52 => ⟨S2359296, .f32⟩
  | 53 => ⟨S2359296, .f32⟩
  | 54 => ⟨S2359296x1, .f32⟩
  | 55 => ⟨S_, .i32⟩
  | 56 => ⟨S2359296, .i32⟩
  | 57 => ⟨S2359296, .i1⟩
  | 58 => ⟨S_, .i32⟩
  | 59 => ⟨S2359296, .i32⟩
  | 60 => ⟨S2359296, .i32⟩
  | 61 => ⟨S2359296, .i32⟩
  | 62 => ⟨S2359296x1, .i32⟩
  | 63 => ⟨S2359296x1, .f32⟩
  | 64 => ⟨S2359296x1, .f32⟩
  | 65 => ⟨S_, .f32⟩
  | 66 => ⟨S262144x1, .f32⟩
  | 67 => ⟨S2359296x1, .i32⟩
  | 68 => ⟨S262144x1, .f32⟩
  | 69 => ⟨S262144x200, .f32⟩
  | 70 => ⟨S1x200, .f32⟩
  | 71 => ⟨S262144x200, .f32⟩
  | 72 => ⟨S262144x200, .f32⟩
  | 73 => ⟨S_, .f32⟩
  | 74 => ⟨S262144x200, .f32⟩
  | 75 => ⟨S262144x200, .f32⟩
  | 76 => ⟨S262144x200, .f32⟩
  | 77 => ⟨S1x200, .f32⟩
  | 78 => ⟨S262144x200, .f32⟩
  | 79 => ⟨S262144x200, .f32⟩
  | 80 => ⟨S_, .f32⟩
  | 81 => ⟨S262144x200, .f32⟩
  | 82 => ⟨S262144x200, .f32⟩
  | 83 => ⟨S262144x200, .f32⟩
  | 84 => ⟨S1x200, .f32⟩
  | 85 => ⟨S262144x200, .f32⟩
  | 86 => ⟨S262144x200, .f32⟩
  | 87 => ⟨S_, .f32⟩
  | 88 => ⟨S262144x200, .f32⟩
  | 89 => ⟨S262144x200, .f32⟩
  | 90 => ⟨S262144x200, .f32⟩
  | 91 => ⟨S1x200, .f32⟩
  | 92 => ⟨S262144x200, .f32⟩
  | 93 => ⟨S262144x200, .f32⟩
  | 94 => ⟨S_, .f32⟩
  | 95 => ⟨S262144x200, .f32⟩
  | 96 => ⟨S262144x200, .f32⟩
  | 97 => ⟨S262144x200, .f32⟩
  | 98 => ⟨S1x200, .f32⟩
  | 99 => ⟨S262144x200, .f32⟩
  | 100 => ⟨S262144x200, .f32⟩
  | 101 => ⟨S_, .f32⟩
  | 102 => ⟨S262144x200, .f32⟩
  | 103 => ⟨S262144x200, .f32⟩
  | 104 => ⟨S262144x200, .f32⟩
  | 105 => ⟨S1x200, .f32⟩
  | 106 => ⟨S262144x200, .f32⟩
  | 107 => ⟨S262144x200, .f32⟩
  | 108 => ⟨S_, .f32⟩
  | 109 => ⟨S262144x200, .f32⟩
  | 110 => ⟨S262144x200, .f32⟩
  | 111 => ⟨S262144x200, .f32⟩
  | 112 => ⟨S1x200, .f32⟩
  | 113 => ⟨S262144x200, .f32⟩
  | 114 => ⟨S262144x200, .f32⟩
  | 115 => ⟨S_, .f32⟩
  | 116 => ⟨S262144x200, .f32⟩
  | 117 => ⟨S262144x200, .f32⟩
  | 118 => ⟨S262144x1, .f32⟩
  | 119 => ⟨S1x1, .f32⟩
  | 120 => ⟨S262144x1, .f32⟩
  | 121 => ⟨S262144x1, .f32⟩
  | 122 => ⟨S262144x1, .f32⟩
  | 123 => ⟨S262144x1, .f32⟩
  | 124 => ⟨S_, .f32⟩
  | 125 => ⟨S262144x1, .f32⟩
  | 126 => ⟨S262144x1, .f32⟩
  | 127 => ⟨S_, .f32⟩
  | _ => ⟨S262144x1, .f32⟩

abbrev hbmTy0_1 (i : Nat) : BufTy := match i % 128 with
  | 0 => ⟨S262144x1, .f32⟩
  | 1 => ⟨S262144x1, .f32⟩
  | _ => ⟨S262144x1, .f32⟩

abbrev hbmTy (i : Nat) : BufTy := match i / 128 with
  | 0 => hbmTy0_0 i
  | 1 => hbmTy0_1 i
  | _ => ⟨S262144x1, .f32⟩

abbrev bufTy : (tb : Table) → Fin (tcTables nBuf tb) → BufTy
  | .hbm, ⟨i, _⟩ => hbmTy i
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call0_cst : Ref sig .tc := ⟨.hbm, 73, rfl⟩
abbrev main_call0_v0 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call1_cst : Ref sig .tc := ⟨.hbm, 80, rfl⟩
abbrev main_call1_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call2_cst : Ref sig .tc := ⟨.hbm, 87, rfl⟩
abbrev main_call2_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call3_cst : Ref sig .tc := ⟨.hbm, 94, rfl⟩
abbrev main_call3_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call4_cst : Ref sig .tc := ⟨.hbm, 101, rfl⟩
abbrev main_call4_v0 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call5_cst : Ref sig .tc := ⟨.hbm, 108, rfl⟩
abbrev main_call5_v0 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call6_cst : Ref sig .tc := ⟨.hbm, 115, rfl⟩
abbrev main_call6_v0 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_8 : Ref sig .tc := ⟨.hbm, 124, rfl⟩
abbrev main_v82 : Ref sig .tc := ⟨.hbm, 125, rfl⟩
abbrev main_v83 : Ref sig .tc := ⟨.hbm, 126, rfl⟩
abbrev main_cst_9 : Ref sig .tc := ⟨.hbm, 127, rfl⟩
abbrev main_v84 : Ref sig .tc := ⟨.hbm, 128, rfl⟩
abbrev main_v85 : Ref sig .tc := ⟨.hbm, 129, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  concatenates_S2097152_S262144_S2359296_d0 : Shape.Concatenates [S2097152, S262144] S2359296 0
  bcast_S_S2359296 : S_.BroadcastsInDim S2359296 (![] : Fin 0 → Fin S2359296.rank)
  bcast_S_S262144 : S_.BroadcastsInDim S262144 (![] : Fin 0 → Fin S262144.rank)
  bcast_S2359296_S2359296x1_0 : S2359296.BroadcastsInDim S2359296x1 (![0] : Fin 1 → Fin S2359296x1.rank)
  bcast_S_S262144x1 : S_.BroadcastsInDim S262144x1 (![] : Fin 0 → Fin S262144x1.rank)
  bcast_S200_S1x200_1 : S200.BroadcastsInDim S1x200 (![1] : Fin 1 → Fin S1x200.rank)
  bcast_S1x200_S262144x200_0_1 : S1x200.BroadcastsInDim S262144x200 (![0, 1] : Fin 2 → Fin S262144x200.rank)
  bcast_S_S262144x200 : S_.BroadcastsInDim S262144x200 (![] : Fin 0 → Fin S262144x200.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  scatter_S262144_S2359296x1_S2359296_n_0_0_1_wf : ScatterDims.WF S262144 S2359296x1 S2359296 [] [0] [0] 1
  gather_S262144_S2359296x1_S2359296_n_0_n_n_0_1_1_wf : GatherDims.WF S262144 S2359296x1 S2359296 [] [0] [] [0] [] 1 ![1]
  gather_S262144x1_S2359296x1_S2359296x1_1_0_n_n_0_1_11_wf : GatherDims.WF S262144x1 S2359296x1 S2359296x1 [1] [0] [] [0] [] 1 ![1, 1]
  scatter_S262144x1_S2359296x1_S2359296x1_1_0_0_1_wf : ScatterDims.WF S262144x1 S2359296x1 S2359296x1 [1] [0] [0] 1
  dot_S262144x1_S1x200_S262144x200_1_0_0_1_n_n_wf : DotDims.WF S262144x1 S1x200 S262144x200 [1] [0] [0] [1] [] []
  dot_S262144x200_S200x200_S262144x200_1_0_0_1_n_n_wf : DotDims.WF S262144x200 S200x200 S262144x200 [1] [0] [0] [1] [] []
  dot_S262144x200_S200x1_S262144x1_1_0_0_1_n_n_wf : DotDims.WF S262144x200 S200x1 S262144x1 [1] [0] [0] [1] [] []

variable [Facts₀]

def scatter_S262144_S2359296x1_S2359296_n_0_0_1 : ScatterDims S262144 S2359296x1 S2359296 where
  updateWindowDims := []
  insertedWindowDims := [0]
  scatterDimsToOperandDims := [0]
  indexVectorDim := 1
  wf := scatter_S262144_S2359296x1_S2359296_n_0_0_1_wf
def gather_S262144_S2359296x1_S2359296_n_0_n_n_0_1_1 : GatherDims S262144 S2359296x1 S2359296 where
  offsetDims := []
  collapsedSliceDims := [0]
  operandBatchingDims := []
  startIndicesBatchingDims := []
  startIndexMap := [0]
  indexVectorDim := 1
  sliceSizes := ![1]
  wf := gather_S262144_S2359296x1_S2359296_n_0_n_n_0_1_1_wf
def gather_S262144x1_S2359296x1_S2359296x1_1_0_n_n_0_1_11 : GatherDims S262144x1 S2359296x1 S2359296x1 where
  offsetDims := [1]
  collapsedSliceDims := [0]
  operandBatchingDims := []
  startIndicesBatchingDims := []
  startIndexMap := [0]
  indexVectorDim := 1
  sliceSizes := ![1, 1]
  wf := gather_S262144x1_S2359296x1_S2359296x1_1_0_n_n_0_1_11_wf
def scatter_S262144x1_S2359296x1_S2359296x1_1_0_0_1 : ScatterDims S262144x1 S2359296x1 S2359296x1 where
  updateWindowDims := [1]
  insertedWindowDims := [0]
  scatterDimsToOperandDims := [0]
  indexVectorDim := 1
  wf := scatter_S262144x1_S2359296x1_S2359296x1_1_0_0_1_wf
def dot_S262144x1_S1x200_S262144x200_1_0_0_1_n_n : DotDims S262144x1 S1x200 S262144x200 where
  lhsContracting := [1]
  rhsContracting := [0]
  lhsNonContracting := [0]
  rhsNonContracting := [1]
  lhsBatch := []
  rhsBatch := []
  wf := dot_S262144x1_S1x200_S262144x200_1_0_0_1_n_n_wf
def dot_S262144x200_S200x200_S262144x200_1_0_0_1_n_n : DotDims S262144x200 S200x200 S262144x200 where
  lhsContracting := [1]
  rhsContracting := [0]
  lhsNonContracting := [0]
  rhsNonContracting := [1]
  lhsBatch := []
  rhsBatch := []
  wf := dot_S262144x200_S200x200_S262144x200_1_0_0_1_n_n_wf
def dot_S262144x200_S200x1_S262144x1_1_0_0_1_n_n : DotDims S262144x200 S200x1 S262144x1 where
  lhsContracting := [1]
  rhsContracting := [0]
  lhsNonContracting := [0]
  rhsNonContracting := [1]
  lhsBatch := []
  rhsBatch := []
  wf := dot_S262144x200_S200x1_S262144x1_1_0_0_1_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.MlpSpec.lean ====
/-
  An eight-layer perceptron on one scalar, over the extended reals.

  Each node of the graph carries one number `a`. The first layer sends it to a vector of width `H`:
  entry `j` is `max (w j * a + b j) 0`. Six hidden layers follow, each `v ↦ max (∑ k, W j k * v k + b j) 0`, and
  the last layer folds the vector back to one number, `∑ k, w k * v k + b`, and applies the logistic function.
  The whole map `mlp P a` is a function of the node's own number only: nodes do not interact.

  Only addition, multiplication, `max` and the logistic function of the extended reals appear, so any two
  programs that compute these sums in another order, or with the factors of each product swapped, compute the
  same function with no finiteness assumed.
-/
import Idealize.ShloMosaic.PureOps.Ideal

noncomputable section

namespace Cert.Mlp

open Idealize.ShloMosaic

variable {H : ℕ}

/-- The first layer: a scalar to a vector, then the ramp. -/
def first (w b : Fin H → EReal) (a : EReal) : Fin H → EReal := fun j => max (w j * a + b j) 0

/-- A hidden layer: `W j k` is the weight from input `k` to output `j`. -/
def dense (W : Fin H → Fin H → EReal) (b : Fin H → EReal) (v : Fin H → EReal) : Fin H → EReal :=
  fun j => max ((∑ k, W j k * v k) + b j) 0

/-- The last layer: a vector to a scalar, then the logistic function. -/
def last (w : Fin H → EReal) (b : EReal) (v : Fin H → EReal) : EReal := Ideal.logistic ((∑ k, w k * v k) + b)

/-- The weights and biases of the eight layers. -/
structure Params (H : ℕ) where
  w0 : Fin H → EReal
  b0 : Fin H → EReal
  W1 : Fin H → Fin H → EReal
  b1 : Fin H → EReal
  W2 : Fin H → Fin H → EReal
  b2 : Fin H → EReal
  W3 : Fin H → Fin H → EReal
  b3 : Fin H → EReal
  W4 : Fin H → Fin H → EReal
  b4 : Fin H → EReal
  W5 : Fin H → Fin H → EReal
  b5 : Fin H → EReal
  W6 : Fin H → Fin H → EReal
  b6 : Fin H → EReal
  w7 : Fin H → EReal
  b7 : EReal

/-- The activations after the first three hidden layers' worth of work, up to the fourth product:
    the vector the third hidden layer's weights are applied to. -/
def upTo2 (P : Params H) (a : EReal) : Fin H → EReal := dense P.W2 P.b2 (dense P.W1 P.b1 (first P.w0 P.b0 a))

/-- The activations after the sixth hidden layer. -/
def hidden (P : Params H) (a : EReal) : Fin H → EReal :=
  dense P.W6 P.b6 (dense P.W5 P.b5 (dense P.W4 P.b4 (dense P.W3 P.b3 (upTo2 P a))))

/-- The perceptron. -/
def mlp (P : Params H) (a : EReal) : EReal := last P.w7 P.b7 (hidden P a)

/-- The pattern of `1.0` denotes `1`. -/
theorem one_val : Ideal.ofBits .f32 0x3F800000#32 = 1 := by
  simp [Ideal.ofBits, Ideal.ieee, -EReal.coe_mul]; norm_num

/-- The logistic function spelt with the pattern of `1.0`: `1 / (1 + exp (-y))`. -/
theorem logistic_spelt (y : EReal) :
    Ideal.div (Ideal.ofBits .f32 0x3F800000#32) (Ideal.ofBits .f32 0x3F800000#32 + Ideal.exp (-y)) = Ideal.logistic y := by
  rw [one_val]; rfl

end Cert.Mlp

end
-- ==== Proof.KernelPayload.lean ====
/-
  The kernel body's arithmetic, read at one lane.

  The body holds a block of 8192 nodes as one row `h` of shape [1, 8192]; every later value is a [200, 8192]
  array whose column `q` belongs to node `q` of the block. Every operation of the body acts on each column by
  itself: the first layer is the outer product `w0 (j) * h (q)` plus a bias column; a hidden layer multiplies the
  [200, 200] weights (stored transposed, so entry `(j, k)` is the weight from input `k` to output `j`) into the
  columns and adds a bias column; the last layer sums `w7 (k) * v (k, q)` down each column. A change of float
  format is the identity on the extended reals. Hence the value stored at lane `q` is the perceptron `Cert.Mlp.mlp`
  of the block's own parameters at `h (0, q)`.
-/
import proofs.«175997_j7052336300581_2_alg».proof.Proof.Gen.KernelIdeal.Skeleton
import proofs.«175997_j7052336300581_2_alg».proof.Proof.LibPlainDot
import proofs.«175997_j7052336300581_2_alg».proof.Proof.LibColumns
import proofs.«175997_j7052336300581_2_alg».proof.Proof.MlpSpec
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen Cert.Mlp

/-- The eight layers' parameters as the body's loaded blocks hold them. -/
def blockParams (x1 : FVec Ideal S200x1 .f32) (x2 x3 x4 x5 x6 x7 : FVec Ideal S200x200 .bf16) (x8 : FVec Ideal S200x1 .f32)
    (x9 x10 x11 x12 x13 x14 x15 : FVec Ideal S200x1 .f32) (x16 : FVec Ideal S1x1 .f32) : Params 200 where
  w0 := fun j => x1 (ix2 j (0 : Fin 1))
  b0 := fun j => x9 (ix2 j (0 : Fin 1))
  W1 := fun j k => x2 (ix2 j k)
  b1 := fun j => x10 (ix2 j (0 : Fin 1))
  W2 := fun j k => x3 (ix2 j k)
  b2 := fun j => x11 (ix2 j (0 : Fin 1))
  W3 := fun j k => x4 (ix2 j k)
  b3 := fun j => x12 (ix2 j (0 : Fin 1))
  W4 := fun j k => x5 (ix2 j k)
  b4 := fun j => x13 (ix2 j (0 : Fin 1))
  W5 := fun j k => x6 (ix2 j k)
  b5 := fun j => x14 (ix2 j (0 : Fin 1))
  W6 := fun j k => x7 (ix2 j k)
  b6 := fun j => x15 (ix2 j (0 : Fin 1))
  w7 := fun k => x8 (ix2 k (0 : Fin 1))
  b7 := x16 (ix2 (0 : Fin 1) (0 : Fin 1))

/-- A [200, 1] column broadcast along the lanes reads its own row's entry. -/
theorem col_apply (b : FVec Ideal S200x1 .f32) (j : Fin 200) (q : Fin 8192) :
    broadcastTo S200x8192 (shapeCast S200x1 b shapeCasts_S200x1_S200x1) broadcasts_S200x1_S200x8192 (ix2 j q)
      = b (ix2 j (0 : Fin 1)) := by
  rw [shapeCast_self]
  exact Cert.Columns.broadcastTo_a1_ab_apply b broadcasts_S200x1_S200x8192 j q

/-- The node row broadcast down the sublanes reads its own lane's entry. -/
theorem row_apply (h : FVec Ideal S1x8192 .f32) (j : Fin 200) (q : Fin 8192) :
    broadcastTo S200x8192 (shapeCast S1x8192 h shapeCasts_S1x8192_S1x8192) broadcasts_S1x8192_S200x8192 (ix2 j q)
      = h (ix2 (0 : Fin 1) q) := by
  rw [shapeCast_self]
  exact broadcastTo_1b_ab_apply h broadcasts_S1x8192_S200x8192 j q

/-- Adding a bias column and taking the ramp, at an entry. -/
theorem ramp_apply (X : FVec Ideal S200x8192 .f32) (b : FVec Ideal S200x1 .f32) (j : Fin 200) (q : Fin 8192) :
    maximumf (addf X (broadcastTo S200x8192 (shapeCast S200x1 b shapeCasts_S200x1_S200x1) broadcasts_S200x1_S200x8192))
      (broadcast S200x8192 (Scalar.ofBits .f32 0x00000000#32)) (ix2 j q)
      = max (X (ix2 j q) + b (ix2 j (0 : Fin 1))) 0 := by
  show max (X (ix2 j q) + broadcastTo S200x8192 (shapeCast S200x1 b shapeCasts_S200x1_S200x1) broadcasts_S200x1_S200x8192 (ix2 j q))
    (Ideal.ofBits .f32 0x00000000#32) = _
  rw [col_apply, Ideal.ofBits_zero_f32]

/-- The first layer's outer product at an entry. -/
theorem outer_apply (w : FVec Ideal S200x1 .f32) (h : FVec Ideal S1x8192 .f32) (j : Fin 200) (q : Fin 8192) :
    mulf (broadcastTo S200x8192 (shapeCast S200x1 w shapeCasts_S200x1_S200x1) broadcasts_S200x1_S200x8192)
      (broadcastTo S200x8192 (shapeCast S1x8192 h shapeCasts_S1x8192_S1x8192) broadcasts_S1x8192_S200x8192) (ix2 j q)
      = w (ix2 j (0 : Fin 1)) * h (ix2 (0 : Fin 1) q) := by
  show broadcastTo S200x8192 (shapeCast S200x1 w shapeCasts_S200x1_S200x1) broadcasts_S200x1_S200x8192 (ix2 j q)
    * broadcastTo S200x8192 (shapeCast S1x8192 h shapeCasts_S1x8192_S1x8192) broadcasts_S1x8192_S200x8192 (ix2 j q) = _
  rw [col_apply, row_apply]

/-- A hidden layer's product into the zero accumulator, at an entry: the weights' row `j` against the activations'
    column `q` (the narrowing of the activations is the identity). -/
theorem prod_apply (Wt : FVec Ideal S200x200 .bf16) (A : FVec Ideal S200x8192 .f32) (j : Fin 200) (q : Fin 8192) :
    matmul dot_S200x200_S200x8192_S200x8192_1_0_0_1_n_n none (shapeCast S200x200 Wt shapeCasts_S200x200_S200x200)
      (truncf .bf16 A bitsLt_bf16_f32) (constant S200x8192 .f32 0x00000000#32) (ix2 j q)
      = ∑ k : Fin 200, Wt (ix2 j k) * A (ix2 k q) := by
  rw [shapeCast_self]
  exact (congrFun (Cert.LibPlainDot.matmul_zero_plain (M := 200) (K := 200) (N := 8192) none Wt
    (truncf .bf16 A bitsLt_bf16_f32)) (ix2 j q)).trans (Cert.LibPlainDot.rowsTimes_apply Wt _ j q)

/-- The lane sum down the 200 sublanes, at a lane. -/
theorem colsum_apply (X : FVec Ideal S200x8192 .f32) (hφ : FKind.Formats .f32)
    (hacc : (0x00000000#32 : BitVec 32) = 0x00000000#32) (q : Fin 8192) :
    multiReduction .add [0] S8192 X 0x00000000#32 reduces_S200x8192_S8192 hφ hacc (ix1 q) = ∑ k : Fin 200, X (ix2 k q) := by
  refine (Ideal.multiReduction_add_single X 0x00000000#32 reduces_S200x8192_S8192 hφ hacc (ix1 q)).trans ?_
  refine Finset.sum_congr rfl fun k _ => congrArg X ?_
  funext a
  apply Fin.ext
  match a with
  | ⟨0, _⟩ => rfl
  | ⟨1, _⟩ => rfl

/-- A [1, 1] scalar broadcast along the lanes reads its one entry. -/
theorem scalar_apply (b : FVec Ideal S1x1 .f32) (q : Fin 8192) :
    broadcastTo S1x8192 (shapeCast S1x1 b shapeCasts_S1x1_S1x1) broadcasts_S1x1_S1x8192 (ix2 (0 : Fin 1) q)
      = b (ix2 (0 : Fin 1) (0 : Fin 1)) := by
  rw [shapeCast_self]
  exact Cert.Columns.broadcastTo_a1_ab_apply b broadcasts_S1x1_S1x8192 (0 : Fin 1) q

/-! ## The layers, each over the previous layer's column -/

/-- The first layer at entry `(j, q)`. -/
theorem first_apply (w : FVec Ideal S200x1 .f32) (h : FVec Ideal S1x8192 .f32) (b : FVec Ideal S200x1 .f32)
    (j : Fin 200) (q : Fin 8192) :
    maximumf (addf (mulf (broadcastTo S200x8192 (shapeCast S200x1 w shapeCasts_S200x1_S200x1) broadcasts_S200x1_S200x8192)
        (broadcastTo S200x8192 (shapeCast S1x8192 h shapeCasts_S1x8192_S1x8192) broadcasts_S1x8192_S200x8192))
        (broadcastTo S200x8192 (shapeCast S200x1 b shapeCasts_S200x1_S200x1) broadcasts_S200x1_S200x8192))
      (broadcast S200x8192 (Scalar.ofBits .f32 0x00000000#32)) (ix2 j q)
      = first (fun j => w (ix2 j (0 : Fin 1))) (fun j => b (ix2 j (0 : Fin 1))) (h (ix2 (0 : Fin 1) q)) j := by
  rw [ramp_apply, outer_apply]
  rfl

/-- A product of the weights into activations whose column `q` is `v`. -/
theorem prod_of (Wt : FVec Ideal S200x200 .bf16) (A : FVec Ideal S200x8192 .f32) (q : Fin 8192) (v : Fin 200 → EReal)
    (hv : ∀ k, A (ix2 k q) = v k) (j : Fin 200) :
    matmul dot_S200x200_S200x8192_S200x8192_1_0_0_1_n_n none (shapeCast S200x200 Wt shapeCasts_S200x200_S200x200)
      (truncf .bf16 A bitsLt_bf16_f32) (constant S200x8192 .f32 0x00000000#32) (ix2 j q)
      = ∑ k : Fin 200, Wt (ix2 j k) * v k := by
  rw [prod_apply]
  exact Finset.sum_congr rfl fun k _ => congrArg (Wt (ix2 j k) * ·) (hv k)

/-- Bias and ramp over a product whose entries in column `q` are known: a hidden layer. -/
theorem ramp_of (X : FVec Ideal S200x8192 .f32) (b : FVec Ideal S200x1 .f32) (q : Fin 8192)
    (W : Fin 200 → Fin 200 → EReal) (v : Fin 200 → EReal) (hX : ∀ j, X (ix2 j q) = ∑ k : Fin 200, W j k * v k) (j : Fin 200) :
    maximumf (addf X (broadcastTo S200x8192 (shapeCast S200x1 b shapeCasts_S200x1_S200x1) broadcasts_S200x1_S200x8192))
      (broadcast S200x8192 (Scalar.ofBits .f32 0x00000000#32)) (ix2 j q)
      = dense W (fun j => b (ix2 j (0 : Fin 1))) v j := by
  rw [ramp_apply, hX j]
  rfl

/-- The last layer at lane `q`, over activations whose column `q` is `v`. -/
theorem last_of (A : FVec Ideal S200x8192 .f32) (w : FVec Ideal S200x1 .f32) (b : FVec Ideal S1x1 .f32) (q : Fin 8192)
    (v : Fin 200 → EReal) (hv : ∀ k, A (ix2 k q) = v k) :
    k0_pay1 (F := Ideal) A w b (ix2 (0 : Fin 1) q) = last (fun k => w (ix2 k (0 : Fin 1))) (b (ix2 (0 : Fin 1) (0 : Fin 1))) v := by
  unfold k0_pay1
  show Ideal.logistic (shapeCast S1x8192 (multiReduction .add [0] S8192 (mulf (broadcastTo S200x8192 w broadcasts_S200x1_S200x8192) A)
      0x00000000#32 reduces_S200x8192_S8192 (.inl rfl) rfl) shapeCasts_S8192_S1x8192 (ix2 (0 : Fin 1) q)
    + broadcastTo S1x8192 (shapeCast S1x1 b shapeCasts_S1x1_S1x1) broadcasts_S1x1_S1x8192 (ix2 (0 : Fin 1) q)) = _
  rw [scalar_apply, shapeCast_a_1a_apply, colsum_apply]
  unfold last
  refine congrArg (fun s => Ideal.logistic (s + b (ix2 (0 : Fin 1) (0 : Fin 1)))) (Finset.sum_congr rfl fun k _ => ?_)
  show broadcastTo S200x8192 w broadcasts_S200x1_S200x8192 (ix2 k q) * A (ix2 k q) = _
  rw [Cert.Columns.broadcastTo_a1_ab_apply w broadcasts_S200x1_S200x8192 k q, hv k]

/-! ## The three payloads and their composition -/

section

variable (x0 : FVec Ideal S1x8192 .f32) (x1 : FVec Ideal S200x1 .f32) (x2 x3 x4 x5 x6 x7 : FVec Ideal S200x200 .bf16)
  (x8 : FVec Ideal S200x1 .f32) (x9 x10 x11 x12 x13 x14 x15 : FVec Ideal S200x1 .f32) (x16 : FVec Ideal S1x1 .f32)

/-- The first payload: the third hidden layer's product, over the activations after two hidden layers. -/
theorem pay2_apply (j : Fin 200) (q : Fin 8192) :
    k0_pay2 (F := Ideal) x0 x1 x9 x2 x10 x3 x11 x4 (ix2 j q)
      = ∑ k : Fin 200, (blockParams x1 x2 x3 x4 x5 x6 x7 x8 x9 x10 x11 x12 x13 x14 x15 x16).W3 j k
          * upTo2 (blockParams x1 x2 x3 x4 x5 x6 x7 x8 x9 x10 x11 x12 x13 x14 x15 x16) (x0 (ix2 (0 : Fin 1) q)) k := by
  unfold k0_pay2
  refine prod_of x4 _ q _ (fun k => ?_) j
  refine ramp_of _ x11 q _ _ (fun j => prod_of x3 _ q _ (fun k => ?_) j) k
  refine ramp_of _ x10 q _ _ (fun j => prod_of x2 _ q _ (fun k => ?_) j) k
  exact first_apply x1 x0 x9 k q

/-- The second payload: from the third hidden layer's product to the activations after the sixth. -/
theorem pay3_apply (X : FVec Ideal S200x8192 .f32) (a : EReal) (q : Fin 8192)
    (hX : ∀ j, X (ix2 j q) = ∑ k : Fin 200, (blockParams x1 x2 x3 x4 x5 x6 x7 x8 x9 x10 x11 x12 x13 x14 x15 x16).W3 j k
      * upTo2 (blockParams x1 x2 x3 x4 x5 x6 x7 x8 x9 x10 x11 x12 x13 x14 x15 x16) a k) (j : Fin 200) :
    k0_pay3 (F := Ideal) X x12 x5 x13 x6 x14 x7 x15 (ix2 j q)
      = hidden (blockParams x1 x2 x3 x4 x5 x6 x7 x8 x9 x10 x11 x12 x13 x14 x15 x16) a j := by
  unfold k0_pay3
  refine ramp_of _ x15 q _ _ (fun j => prod_of x7 _ q _ (fun k => ?_) j) j
  refine ramp_of _ x14 q _ _ (fun j => prod_of x6 _ q _ (fun k => ?_) j) k
  refine ramp_of _ x13 q _ _ (fun j => prod_of x5 _ q _ (fun k => ?_) j) k
  exact ramp_of X x12 q _ _ hX k

/-- THE BODY'S STORED VALUE at a lane is the perceptron of the block's parameters at the node row's entry there. -/
theorem payload_apply (y : S1x8192.Idx) :
    k0_pay1 (F := Ideal) (k0_pay3 (F := Ideal) (k0_pay2 (F := Ideal) x0 x1 x9 x2 x10 x3 x11 x4) x12 x5 x13 x6 x14 x7 x15) x8 x16 y
      = mlp (blockParams x1 x2 x3 x4 x5 x6 x7 x8 x9 x10 x11 x12 x13 x14 x15 x16) (x0 y) := by
  obtain ⟨p, q, rfl⟩ : ∃ (p : Fin 1) (q : Fin 8192), y = ix2 p q := ⟨y 0, y 1, eq_ix2 y⟩
  obtain rfl : p = 0 := Subsingleton.elim _ _
  exact last_of _ x8 x16 q _ fun k =>
    pay3_apply x1 x2 x3 x4 x5 x6 x7 x8 x9 x10 x11 x12 x13 x14 x15 x16 _ (x0 (ix2 (0 : Fin 1) q)) q
      (fun j => pay2_apply x0 x1 x2 x3 x4 x5 x6 x7 x8 x9 x10 x11 x12 x13 x14 x15 x16 j q) k

end

end Cert.KernelIdeal.Payload

end
-- ==== Proof.KernelArray.lean ====
/-
  From the blocks to the whole array, and through the final reshape.

  The grid has 32 points; point `t` reads lanes `8192 t … 8192 t + 8191` of the node row [1, 262144] and writes the
  same lanes of the result row, while every weight and bias window is its whole array at every point. So what
  point `t` writes back is the restriction to its lanes of ONE function of the arrays as the region finds them:
  lane `i` of the result is the perceptron, with those arrays' parameters, of lane `i` of the node row. The 32 blocks
  cover the row (lane `i` lies in block `i / 8192`), so after the run the result row is that function everywhere, and
  the program's result is its reshape to a column.
-/
import proofs.«175997_j7052336300581_2_alg».proof.Proof.Gen.KernelIdeal.Frame
import proofs.«175997_j7052336300581_2_alg».proof.Proof.KernelPayload
import Idealize.ShloMosaic.Lib.Pipeline.Value
import Idealize.ShloMosaic.Lib.StableHlo.Run
import Idealize.ShloMosaic.Lib.ValueIdx

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen Cert.KernelIdeal.Payload Cert.Mlp

variable (m : (ℓ : Loc nD τ sig) → Buf (Elt Ideal) ℓ) (ρ : Dev nD → PrngReg)

theorem hz : (![0, 0] : Fin 2 → Nat) = fun _ => 0 := funext fun a => by fin_cases a <;> rfl

/-- The layers' parameters as the region finds the arrays. -/
def arrParams (c : Dev nD) : Params 200 :=
  blockParams (V m c main_v42) (V m c main_v44) (V m c main_v46) (V m c main_v48) (V m c main_v50) (V m c main_v52)
    (V m c main_v54) (V m c main_arg16) (V m c main_v55) (V m c main_v56) (V m c main_v57) (V m c main_v58) (V m c main_v59)
    (V m c main_v60) (V m c main_v61) (V m c main_v62)

/-- The result row: lane `i` is the perceptron at lane `i` of the node row. -/
def row (c : Dev nD) : S1x262144.Idx → EReal := fun i => mlp (arrParams m c) (V m c main_v41 i)

/-- The node row's window and the result's move along the lanes with the grid point. -/
theorem lane_facts : ∀ t : Fin cfg0.N, win0_0.index t (0 : Fin 2) = 0 ∧ win0_0.index t (1 : Fin 2) = t.val
    ∧ win0_17.index t (0 : Fin 2) = 0 ∧ win0_17.index t (1 : Fin 2) = t.val :=
  (by decide +kernel : ∀ t : Fin grid0.N, _)

/-- A window that stays at block (0, 0) and whose block is its whole array reads, inside its block, the array at the same
    index: the block's coordinate `y` sits at `0 * size + 1 * y`. The arguments are the window, its two extents, and the two
    facts that its block index is zero. -/
local macro "whole_window" win:ident a:num b:num e:ident : tactic =>
  `(tactic| (funext d; apply Fin.ext
             match d with
             | ⟨0, _⟩ => show Pipeline.Window.index $win _ (0 : Fin 2) * $a + 1 * (_ : Nat) = _; have := And.left $e; omega
             | ⟨1, _⟩ => show Pipeline.Window.index $win _ (1 : Fin 2) * $b + 1 * (_ : Nat) = _; have := And.right $e; omega))

/-- The first layer's weights, transposed to a column. -/
theorem whole1 (t : Fin cfg0.N) (X : FVec Ideal S200x1 .f32) :
    (((cfg0.win 1).blk t).view.read (Elt Ideal) X : FVec Ideal S200x1 .f32) = X := by
  funext y
  have e : win0_1.index t (0 : Fin 2) = 0 ∧ win0_1.index t (1 : Fin 2) = 0 :=
    (by decide +kernel : ∀ t : Fin grid0.N, win0_1.index t (0 : Fin 2) = 0 ∧ win0_1.index t (1 : Fin 2) = 0) t
  have h : ((cfg0.win 1).blk t).view.emb y = y := by whole_window win0_1 200 1 e
  show X (((cfg0.win 1).blk t).view.emb y) = X y
  rw [h]

theorem blk1 (c : Dev nD) (t : Fin cfg0.N) : (iblk m c 1 t : FVec Ideal S200x1 .f32) = V m c main_v42 :=
  whole1 t (V m c main_v42)

/-- The six hidden layers' weights, transposed and narrowed. -/
theorem whole2 (t : Fin cfg0.N) (X : FVec Ideal S200x200 .bf16) :
    (((cfg0.win 2).blk t).view.read (Elt Ideal) X : FVec Ideal S200x200 .bf16) = X := by
  funext y
  have e : win0_2.index t (0 : Fin 2) = 0 ∧ win0_2.index t (1 : Fin 2) = 0 :=
    (by decide +kernel : ∀ t : Fin grid0.N, win0_2.index t (0 : Fin 2) = 0 ∧ win0_2.index t (1 : Fin 2) = 0) t
  have h : ((cfg0.win 2).blk t).view.emb y = y := by whole_window win0_2 200 200 e
  show X (((cfg0.win 2).blk t).view.emb y) = X y
  rw [h]

theorem blk2 (c : Dev nD) (t : Fin cfg0.N) : (iblk m c 2 t : FVec Ideal S200x200 .bf16) = V m c main_v44 :=
  whole2 t (V m c main_v44)

theorem whole3 (t : Fin cfg0.N) (X : FVec Ideal S200x200 .bf16) :
    (((cfg0.win 3).blk t).view.read (Elt Ideal) X : FVec Ideal S200x200 .bf16) = X := by
  funext y
  have e : win0_3.index t (0 : Fin 2) = 0 ∧ win0_3.index t (1 : Fin 2) = 0 :=
    (by decide +kernel : ∀ t : Fin grid0.N, win0_3.index t (0 : Fin 2) = 0 ∧ win0_3.index t (1 : Fin 2) = 0) t
  have h : ((cfg0.win 3).blk t).view.emb y = y := by whole_window win0_3 200 200 e
  show X (((cfg0.win 3).blk t).view.emb y) = X y
  rw [h]

theorem blk3 (c : Dev nD) (t : Fin cfg0.N) : (iblk m c 3 t : FVec Ideal S200x200 .bf16) = V m c main_v46 :=
  whole3 t (V m c main_v46)

theorem whole4 (t : Fin cfg0.N) (X : FVec Ideal S200x200 .bf16) :
    (((cfg0.win 4).blk t).view.read (Elt Ideal) X : FVec Ideal S200x200 .bf16) = X := by
  funext y
  have e : win0_4.index t (0 : Fin 2) = 0 ∧ win0_4.index t (1 : Fin 2) = 0 :=
    (by decide +kernel : ∀ t : Fin grid0.N, win0_4.index t (0 : Fin 2) = 0 ∧ win0_4.index t (1 : Fin 2) = 0) t
  have h : ((cfg0.win 4).blk t).view.emb y = y := by whole_window win0_4 200 200 e
  show X (((cfg0.win 4).blk t).view.emb y) = X y
  rw [h]

theorem blk4 (c : Dev nD) (t : Fin cfg0.N) : (iblk m c 4 t : FVec Ideal S200x200 .bf16) = V m c main_v48 :=
  whole4 t (V m c main_v48)

theorem whole5 (t : Fin cfg0.N) (X : FVec Ideal S200x200 .bf16) :
    (((cfg0.win 5).blk t).view.read (Elt Ideal) X : FVec Ideal S200x200 .bf16) = X := by
  funext y
  have e : win0_5.index t (0 : Fin 2) = 0 ∧ win0_5.index t (1 : Fin 2) = 0 :=
    (by decide +kernel : ∀ t : Fin grid0.N, win0_5.index t (0 : Fin 2) = 0 ∧ win0_5.index t (1 : Fin 2) = 0) t
  have h : ((cfg0.win 5).blk t).view.emb y = y := by whole_window win0_5 200 200 e
  show X (((cfg0.win 5).blk t).view.emb y) = X y
  rw [h]

theorem blk5 (c : Dev nD) (t : Fin cfg0.N) : (iblk m c 5 t : FVec Ideal S200x200 .bf16) = V m c main_v50 :=
  whole5 t (V m c main_v50)

theorem whole6 (t : Fin cfg0.N) (X : FVec Ideal S200x200 .bf16) :
    (((cfg0.win 6).blk t).view.read (Elt Ideal) X : FVec Ideal S200x200 .bf16) = X := by
  funext y
  have e : win0_6.index t (0 : Fin 2) = 0 ∧ win0_6.index t (1 : Fin 2) = 0 :=
    (by decide +kernel : ∀ t : Fin grid0.N, win0_6.index t (0 : Fin 2) = 0 ∧ win0_6.index t (1 : Fin 2) = 0) t
  have h : ((cfg0.win 6).blk t).view.emb y = y := by whole_window win0_6 200 200 e
  show X (((cfg0.win 6).blk t).view.emb y) = X y
  rw [h]

theorem blk6 (c : Dev nD) (t : Fin cfg0.N) : (iblk m c 6 t : FVec Ideal S200x200 .bf16) = V m c main_v52 :=
  whole6 t (V m c main_v52)

theorem whole7 (t : Fin cfg0.N) (X : FVec Ideal S200x200 .bf16) :
    (((cfg0.win 7).blk t).view.read (Elt Ideal) X : FVec Ideal S200x200 .bf16) = X := by
  funext y
  have e : win0_7.index t (0 : Fin 2) = 0 ∧ win0_7.index t (1 : Fin 2) = 0 :=
    (by decide +kernel : ∀ t : Fin grid0.N, win0_7.index t (0 : Fin 2) = 0 ∧ win0_7.index t (1 : Fin 2) = 0) t
  have h : ((cfg0.win 7).blk t).view.emb y = y := by whole_window win0_7 200 200 e
  show X (((cfg0.win 7).blk t).view.emb y) = X y
  rw [h]

theorem blk7 (c : Dev nD) (t : Fin cfg0.N) : (iblk m c 7 t : FVec Ideal S200x200 .bf16) = V m c main_v54 :=
  whole7 t (V m c main_v54)

/-- The last layer's weights, a column as the argument has them. -/
theorem whole8 (t : Fin cfg0.N) (X : FVec Ideal S200x1 .f32) :
    (((cfg0.win 8).blk t).view.read (Elt Ideal) X : FVec Ideal S200x1 .f32) = X := by
  funext y
  have e : win0_8.index t (0 : Fin 2) = 0 ∧ win0_8.index t (1 : Fin 2) = 0 :=
    (by decide +kernel : ∀ t : Fin grid0.N, win0_8.index t (0 : Fin 2) = 0 ∧ win0_8.index t (1 : Fin 2) = 0) t
  have h : ((cfg0.win 8).blk t).view.emb y = y := by whole_window win0_8 200 1 e
  show X (((cfg0.win 8).blk t).view.emb y) = X y
  rw [h]

theorem blk8 (c : Dev nD) (t : Fin cfg0.N) : (iblk m c 8 t : FVec Ideal S200x1 .f32) = V m c main_arg16 :=
  whole8 t (V m c main_arg16)

/-- The seven bias vectors of width 200, each reshaped to a column. -/
theorem whole9 (t : Fin cfg0.N) (X : FVec Ideal S200x1 .f32) :
    (((cfg0.win 9).blk t).view.read (Elt Ideal) X : FVec Ideal S200x1 .f32) = X := by
  funext y
  have e : win0_9.index t (0 : Fin 2) = 0 ∧ win0_9.index t (1 : Fin 2) = 0 :=
    (by decide +kernel : ∀ t : Fin grid0.N, win0_9.index t (0 : Fin 2) = 0 ∧ win0_9.index t (1 : Fin 2) = 0) t
  have h : ((cfg0.win 9).blk t).view.emb y = y := by whole_window win0_9 200 1 e
  show X (((cfg0.win 9).blk t).view.emb y) = X y
  rw [h]

theorem blk9 (c : Dev nD) (t : Fin cfg0.N) : (iblk m c 9 t : FVec Ideal S200x1 .f32) = V m c main_v55 :=
  whole9 t (V m c main_v55)

theorem whole10 (t : Fin cfg0.N) (X : FVec Ideal S200x1 .f32) :
    (((cfg0.win 10).blk t).view.read (Elt Ideal) X : FVec Ideal S200x1 .f32) = X := by
  funext y
  have e : win0_10.index t (0 : Fin 2) = 0 ∧ win0_10.index t (1 : Fin 2) = 0 :=
    (by decide +kernel : ∀ t : Fin grid0.N, win0_10.index t (0 : Fin 2) = 0 ∧ win0_10.index t (1 : Fin 2) = 0) t
  have h : ((cfg0.win 10).blk t).view.emb y = y := by whole_window win0_10 200 1 e
  show X (((cfg0.win 10).blk t).view.emb y) = X y
  rw [h]

theorem blk10 (c : Dev nD) (t : Fin cfg0.N) : (iblk m c 10 t : FVec Ideal S200x1 .f32) = V m c main_v56 :=
  whole10 t (V m c main_v56)

theorem whole11 (t : Fin cfg0.N) (X : FVec Ideal S200x1 .f32) :
    (((cfg0.win 11).blk t).view.read (Elt Ideal) X : FVec Ideal S200x1 .f32) = X := by
  funext y
  have e : win0_11.index t (0 : Fin 2) = 0 ∧ win0_11.index t (1 : Fin 2) = 0 :=
    (by decide +kernel : ∀ t : Fin grid0.N, win0_11.index t (0 : Fin 2) = 0 ∧ win0_11.index t (1 : Fin 2) = 0) t
  have h : ((cfg0.win 11).blk t).view.emb y = y := by whole_window win0_11 200 1 e
  show X (((cfg0.win 11).blk t).view.emb y) = X y
  rw [h]

theorem blk11 (c : Dev nD) (t : Fin cfg0.N) : (iblk m c 11 t : FVec Ideal S200x1 .f32) = V m c main_v57 :=
  whole11 t (V m c main_v57)

theorem whole12 (t : Fin cfg0.N) (X : FVec Ideal S200x1 .f32) :
    (((cfg0.win 12).blk t).view.read (Elt Ideal) X : FVec Ideal S200x1 .f32) = X := by
  funext y
  have e : win0_12.index t (0 : Fin 2) = 0 ∧ win0_12.index t (1 : Fin 2) = 0 :=
    (by decide +kernel : ∀ t : Fin grid0.N, win0_12.index t (0 : Fin 2) = 0 ∧ win0_12.index t (1 : Fin 2) = 0) t
  have h : ((cfg0.win 12).blk t).view.emb y = y := by whole_window win0_12 200 1 e
  show X (((cfg0.win 12).blk t).view.emb y) = X y
  rw [h]

theorem blk12 (c : Dev nD) (t : Fin cfg0.N) : (iblk m c 12 t : FVec Ideal S200x1 .f32) = V m c main_v58 :=
  whole12 t (V m c main_v58)

theorem whole13 (t : Fin cfg0.N) (X : FVec Ideal S200x1 .f32) :
    (((cfg0.win 13).blk t).view.read (Elt Ideal) X : FVec Ideal S200x1 .f32) = X := by
  funext y
  have e : win0_13.index t (0 : Fin 2) = 0 ∧ win0_13.index t (1 : Fin 2) = 0 :=
    (by decide +kernel : ∀ t : Fin grid0.N, win0_13.index t (0 : Fin 2) = 0 ∧ win0_13.index t (1 : Fin 2) = 0) t
  have h : ((cfg0.win 13).blk t).view.emb y = y := by whole_window win0_13 200 1 e
  show X (((cfg0.win 13).blk t).view.emb y) = X y
  rw [h]

theorem blk13 (c : Dev nD) (t : Fin cfg0.N) : (iblk m c 13 t : FVec Ideal S200x1 .f32) = V m c main_v59 :=
  whole13 t (V m c main_v59)

theorem whole14 (t : Fin cfg0.N) (X : FVec Ideal S200x1 .f32) :
    (((cfg0.win 14).blk t).view.read (Elt Ideal) X : FVec Ideal S200x1 .f32) = X := by
  funext y
  have e : win0_14.index t (0 : Fin 2) = 0 ∧ win0_14.index t (1 : Fin 2) = 0 :=
    (by decide +kernel : ∀ t : Fin grid0.N, win0_14.index t (0 : Fin 2) = 0 ∧ win0_14.index t (1 : Fin 2) = 0) t
  have h : ((cfg0.win 14).blk t).view.emb y = y := by whole_window win0_14 200 1 e
  show X (((cfg0.win 14).blk t).view.emb y) = X y
  rw [h]

theorem blk14 (c : Dev nD) (t : Fin cfg0.N) : (iblk m c 14 t : FVec Ideal S200x1 .f32) = V m c main_v60 :=
  whole14 t (V m c main_v60)

theorem whole15 (t : Fin cfg0.N) (X : FVec Ideal S200x1 .f32) :
    (((cfg0.win 15).blk t).view.read (Elt Ideal) X : FVec Ideal S200x1 .f32) = X := by
  funext y
  have e : win0_15.index t (0 : Fin 2) = 0 ∧ win0_15.index t (1 : Fin 2) = 0 :=
    (by decide +kernel : ∀ t : Fin grid0.N, win0_15.index t (0 : Fin 2) = 0 ∧ win0_15.index t (1 : Fin 2) = 0) t
  have h : ((cfg0.win 15).blk t).view.emb y = y := by whole_window win0_15 200 1 e
  show X (((cfg0.win 15).blk t).view.emb y) = X y
  rw [h]

theorem blk15 (c : Dev nD) (t : Fin cfg0.N) : (iblk m c 15 t : FVec Ideal S200x1 .f32) = V m c main_v61 :=
  whole15 t (V m c main_v61)

/-- The last layer's bias, reshaped to [1, 1]. -/
theorem whole16 (t : Fin cfg0.N) (X : FVec Ideal S1x1 .f32) :
    (((cfg0.win 16).blk t).view.read (Elt Ideal) X : FVec Ideal S1x1 .f32) = X := by
  funext y
  have e : win0_16.index t (0 : Fin 2) = 0 ∧ win0_16.index t (1 : Fin 2) = 0 :=
    (by decide +kernel : ∀ t : Fin grid0.N, win0_16.index t (0 : Fin 2) = 0 ∧ win0_16.index t (1 : Fin 2) = 0) t
  have h : ((cfg0.win 16).blk t).view.emb y = y := by whole_window win0_16 1 1 e
  show X (((cfg0.win 16).blk t).view.emb y) = X y
  rw [h]

theorem blk16 (c : Dev nD) (t : Fin cfg0.N) : (iblk m c 16 t : FVec Ideal S1x1 .f32) = V m c main_v62 :=
  whole16 t (V m c main_v62)

/-- The parameters the body finds in its blocks at any point are the arrays'. -/
theorem params_blk (c : Dev nD) (t : Fin cfg0.N) :
    blockParams (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) (iblk m c 16 t) = arrParams m c := by
  unfold arrParams
  rw [blk1 m c t, blk2 m c t, blk3 m c t, blk4 m c t, blk5 m c t, blk6 m c t, blk7 m c t, blk8 m c t, blk9 m c t,
    blk10 m c t, blk11 m c t, blk12 m c t, blk13 m c t, blk14 m c t, blk15 m c t, blk16 m c t]

/-- The result row's window at point `t`, read off any array: the array at the block's own lanes. -/
theorem read17 (t : Fin cfg0.N) (X : FVec Ideal S1x262144 .f32) (y : S1x8192.Idx) :
    ((cfg0.win 17).blk t).view.read (Elt Ideal) X y = X (((cfg0.win 17).blk t).view.emb y) := rfl

/-- The node row's window at point `t` reads the same lanes as the result row's. -/
theorem read0 (t : Fin cfg0.N) (X : FVec Ideal S1x262144 .f32) (y : S1x8192.Idx) :
    ((cfg0.win 0).blk t).view.read (Elt Ideal) X y = X (((cfg0.win 17).blk t).view.emb y) := by
  obtain ⟨e0, e1, e2, e3⟩ := lane_facts t
  have h : ((cfg0.win 0).blk t).view.emb y = ((cfg0.win 17).blk t).view.emb y := by
    funext a; apply Fin.ext
    match a with
    | ⟨0, _⟩ => show win0_0.index t (0 : Fin 2) * 1 + 1 * (y 0).val = win0_17.index t (0 : Fin 2) * 1 + 1 * (y 0).val; omega
    | ⟨1, _⟩ => show win0_0.index t (1 : Fin 2) * 8192 + 1 * (y 1).val = win0_17.index t (1 : Fin 2) * 8192 + 1 * (y 1).val; omega
  show X (((cfg0.win 0).blk t).view.emb y) = X (((cfg0.win 17).blk t).view.emb y)
  rw [h]

/-- WHAT POINT `t` WRITES BACK is block `t` of the result row. -/
theorem flushed_eq (c : Dev nD) (t : Fin cfg0.N) :
    (dats m 0 c).flushed 17 t = ((cfg0.win 17).blk t).view.read (Elt Ideal) (row m c) := by
  show (cfg0.win 17).cut (grid0.coords t) ((dats m 0 c).after 17 t) = _
  rw [after0_17]
  unfold out0_17
  rw [View.canon_unit_zero hz]
  simp only [View.ld_unit_zero (S := S1x8192) hz, View.ld_unit_zero (S := S200x1) hz, View.ld_unit_zero (S := S200x200) hz,
    View.ld_unit_zero (S := S1x1) hz]
  funext y
  refine (payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) (iblk m c 16 t) y).trans ?_
  refine (congrArg (fun P => mlp P (iblk m c 0 t y)) (params_blk m c t)).trans ?_
  refine (congrArg (mlp (arrParams m c)) (read0 t (V m c main_v41) y)).trans ?_
  exact (read17 t (row m c) y).symm

/-- An index of the result row is in point `t`'s block iff each coordinate is in the block's range on its axis. -/
theorem mem_blk (t : Fin cfg0.N) (i : S1x262144.Idx) :
    i ∈ ((cfg0.win 17).blk t).view.set ↔ ∀ a : Fin 2, win0_17.index t a * S1x8192.size a ≤ (i a).val
      ∧ (i a).val < win0_17.index t a * S1x8192.size a + S1x8192.size a := by
  show i ∈ ((View.whole main_v63).slice (win0_17.rect t)).set ↔ _
  rw [View.set_slice_whole, Rect.mem_set_unit]
  exact Iff.rfl

/-- Lane `i` lies in block `i / 8192`. -/
theorem cover (i : S1x262144.Idx) : ∃ t : Fin cfg0.N, (cfg0.win 17).flush t = true ∧ i ∈ ((cfg0.win 17).blk t).view.set := by
  have hi0 : (i 0).val < 1 := (i 0).isLt
  have hi1 : (i 1).val < 262144 := (i 1).isLt
  have hN : grid0.N = 32 := N_0
  let t : Fin cfg0.N := Fin.cast hN.symm ⟨(i 1).val / 8192, by omega⟩
  have ht : t.val = (i 1).val / 8192 := rfl
  obtain ⟨e0, e1, e2, e3⟩ := lane_facts t
  refine ⟨t, flush0_17 t, ?_⟩
  rw [mem_blk]
  intro a
  match a with
  | ⟨0, _⟩ => show win0_17.index t (0 : Fin 2) * 1 ≤ (i 0).val ∧ (i 0).val < win0_17.index t (0 : Fin 2) * 1 + 1; omega
  | ⟨1, _⟩ => show win0_17.index t (1 : Fin 2) * 8192 ≤ (i 1).val ∧ (i 1).val < win0_17.index t (1 : Fin 2) * 8192 + 8192; omega

/-- THE RESULT ROW after the run. -/
theorem final (c : Dev nD) : (dats m 0 c).arrAt 17 cfg0.N = row m c :=
  (dats m 0 c).arrAt_eq_of_cover 17 (row m c) (fun t _ => flushed_eq m c t) (cover)

/-- THE PROGRAM'S RESULT: the result row reshaped to a column. -/
theorem tail_eq (c : Dev nD) :
    Pipeline.afterTail₀ cfgs (dats m) 0 (V0 m) [hostOps1] c main_v64
      = shapeCast S262144x1 (row m c) shapeCasts_S1x262144_S262144x1 := by
  unfold Pipeline.afterTail₀
  show StableHlo.after hostOps1 _ (Proc.devRef .tc main_v64) = _
  after_results
  exact congrArg (fun x => shapeCast S262144x1 x shapeCasts_S1x262144_S262144x1)
    ((Pipeline.withArrays_arr spec0 launch0.win.arr_inj c _ _ 17).trans (final m c))

/-- THE RUN, READ: every weakly fair execution ends with the result at the reshaped result row and the arguments as they
    were (the result and the arguments no window stages by the run's second clause, the one staged argument by its first). -/
theorem run : θ_run defs (onTc (τ := τ) (main (F := Ideal))) ⟨m, fun _ => 0, ρ⟩ (fun r => ∀ c : Dev nD,
      r.2.mem ((c.tc : Thread nD τ).loc main_v64) = shapeCast S262144x1 (row m c) shapeCasts_S1x262144_S262144x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨((h c).2 main_v64 (Pipeline.mem_restRefs_of main_v64 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).1 8).trans (((dats m 0 c).arrAt_in 8 rfl _).trans ((A_eq m c 8).trans (V_main_arg16 m c))),
      ((h c).2 main_arg17 (Pipeline.mem_restRefs_of main_arg17 (by decide) (by decide))).trans (W_main_arg17 m (dats m) c)⟩) (run_main m ρ)

end Cert.KernelIdeal.Whole

end
-- ==== Proof.LibAfterAppend.lean ====
/-
  Host lines run in two stretches.

  The contents a list of host operations leaves are a left fold over the list, so running `l₁ ++ l₂` from contents `W`
  is running `l₂` from what `l₁` leaves. With `List.take_append_drop` (or a program's own split of its host lines into
  named parts) this cuts a long stretch at any line: the contents before the cut can then be kept as one opaque valuation
  while the lines after it are read back one reference at a time, at a cost that grows with the lines after the cut only.
-/
import Idealize.ShloMosaic.Lib.StableHlo.Run

namespace Cert.LibAfterAppend

open Idealize.ShloMosaic Idealize.ShloMosaic.StableHlo

/-- Running two stretches of host lines one after the other. -/
theorem after_append {τ : Topo} {sig : RefSig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- A stretch cut after its first `k` lines. -/
theorem after_take_drop {τ : Topo} {sig : RefSig} {Val : EltTy → Type} (k : ℕ) (l : List (HloOp τ sig Val)) (W : Valuation τ sig Val) :
    StableHlo.after l W = StableHlo.after (l.drop k) (StableHlo.after (l.take k) W) := by
  rw [← after_append, List.take_append_drop]

end Cert.LibAfterAppend
-- ==== Proof.HostSplit.lean ====
/-
  The host lines before the region, cut after the aggregated node feature.

  Before the call the host computes the aggregated node feature (a column [262144, 1]) in 51 lines and then, in 22 more,
  lays out the arrays the kernel's windows stage. The contents after the first 51 lines are taken as they are: the 22
  later lines read from them only the aggregated feature and the arguments. The last 13 of those lines (from the fourth
  hidden layer's narrowing on) can also be read by themselves, from the contents after the first 60.
-/
import proofs.«175997_j7052336300581_2_alg».proof.Proof.Gen.KernelIdeal.Frame
import proofs.«175997_j7052336300581_2_alg».proof.Proof.LibAfterAppend
import Idealize.ShloMosaic.Lib.StableHlo.Run
import Idealize.ShloMosaic.PureOps.Ideal
import Idealize.ShloMosaic.Lib.Pipeline.Value

set_option maxRecDepth 16384

noncomputable section

namespace Cert.KernelIdeal.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The contents once the aggregated feature is computed (the first 51 host lines), taken as they are. -/
def afterAggregate (c : Dev nD) : Valuation τ sig (Elt Ideal) :=
  StableHlo.after ((hostOps0 (F := Ideal)).take 51) (fun b => m (c, b))

/-- The contents at the region's entry are the 22 later lines run from there. -/
theorem V0_split (c : Dev nD) : V0 m c = StableHlo.after ((hostOps0 (F := Ideal)).drop 51) (afterAggregate m c) := by
  unfold afterAggregate
  rw [← Cert.LibAfterAppend.after_append, List.take_append_drop]
  simp only [V0, List.flatten_cons, List.flatten_nil, List.append_nil]

/-- The contents after the first 60 host lines (the aggregated feature and the first nine layout lines), taken as they are. -/
def afterFirstPart (c : Dev nD) : Valuation τ sig (Elt Ideal) :=
  StableHlo.after (main_part0_ops0 (F := Ideal)) (fun b => m (c, b))

/-- The contents at the region's entry are the last 13 host lines run from there. -/
theorem V0_late (c : Dev nD) : V0 m c = StableHlo.after (main_part1_ops0 (F := Ideal)) (afterFirstPart m c) := by
  unfold afterFirstPart
  rw [← Cert.LibAfterAppend.after_append]
  rfl

/-- Read the 22 later lines at the references of the goal: what is left is over the contents after the aggregate. -/
macro "read_later_lines" : tactic =>
  `(tactic| (rw [Cert.KernelIdeal.HostPrefix.V0_split]
             simp only [Cert.KernelIdeal.Gen.hostOps0, List.drop_succ_cons, List.drop_zero]
             after_results
             try rfl))

/-- Read the last 13 lines at the references of the goal: what is left is over the contents after the first 60. -/
macro "read_last_lines" : tactic =>
  `(tactic| (rw [Cert.KernelIdeal.HostPrefix.V0_late]
             simp only [Cert.KernelIdeal.Gen.main_part1_ops0]
             after_results
             try rfl))

end Cert.KernelIdeal.HostPrefix

end
-- ==== Proof.HostRow.lean ====
/-
  The node row the kernel's first window stages is the aggregated feature's column, reshaped to [1, 262144].
-/
import proofs.«175997_j7052336300581_2_alg».proof.Proof.HostSplit
import Idealize.ShloMosaic.Lib.StableHlo.Run
import Idealize.ShloMosaic.Lib.Pipeline.Value

set_option maxRecDepth 16384

noncomputable section

namespace Cert.KernelIdeal.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 8000000 in
/-- The node row is the aggregated feature's column, reshaped. -/
theorem V41 (c : Dev nD) : (V m c main_v41 : FVec Ideal S1x262144 .f32)
    = shapeCast S1x262144 (V m c main_v40 : FVec Ideal S262144x1 .f32) shapeCasts_S262144x1_S1x262144 := by
  show V0 m c (Proc.devRef .tc main_v41) = shapeCast S1x262144 (V0 m c (Proc.devRef .tc main_v40)) shapeCasts_S262144x1_S1x262144
  read_later_lines

end Cert.KernelIdeal.HostPrefix

end
-- ==== Proof.HostWeights.lean ====
/-
  The weight arrays the kernel's windows stage: the first layer's [1, 200] weights transposed to a column, and each
  hidden layer's [200, 200] weights transposed and then narrowed (the narrowing is the identity on the extended reals).
-/
import proofs.«175997_j7052336300581_2_alg».proof.Proof.HostSplit
import Idealize.ShloMosaic.Lib.StableHlo.Run
import Idealize.ShloMosaic.Lib.Pipeline.Value

set_option maxRecDepth 16384

noncomputable section

namespace Cert.KernelIdeal.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 8000000 in
/-- The first layer's weights, transposed. -/
theorem V42 (c : Dev nD) : (V m c main_v42 : FVec Ideal S200x1 .f32)
    = transpose S200x1 [1, 0] (V m c main_arg2 : FVec Ideal S1x200 .f32) transposes_S1x200_S200x1_1_0 := by
  show V0 m c (Proc.devRef .tc main_v42) = transpose S200x1 [1, 0] (V0 m c (Proc.devRef .tc main_arg2)) transposes_S1x200_S200x1_1_0
  read_later_lines

set_option maxHeartbeats 8000000 in
/-- The first hidden layer's weights, transposed and narrowed; the five after it likewise. -/
theorem V44 (c : Dev nD) : (V m c main_v44 : FVec Ideal S200x200 .bf16)
    = truncf (F := Ideal) .bf16 (transpose S200x200 [1, 0] (V m c main_arg4 : FVec Ideal S200x200 .f32) transposes_S200x200_S200x200_1_0) bitsLt_bf16_f32 := by
  show (V0 m c (Proc.devRef .tc main_v44) : FVec Ideal S200x200 .bf16) = truncf (F := Ideal) .bf16 (transpose S200x200 [1, 0] (V0 m c (Proc.devRef .tc main_arg4)) transposes_S200x200_S200x200_1_0) bitsLt_bf16_f32
  read_later_lines

set_option maxHeartbeats 8000000 in
theorem V46 (c : Dev nD) : (V m c main_v46 : FVec Ideal S200x200 .bf16)
    = truncf (F := Ideal) .bf16 (transpose S200x200 [1, 0] (V m c main_arg6 : FVec Ideal S200x200 .f32) transposes_S200x200_S200x200_1_0) bitsLt_bf16_f32 := by
  show (V0 m c (Proc.devRef .tc main_v46) : FVec Ideal S200x200 .bf16) = truncf (F := Ideal) .bf16 (transpose S200x200 [1, 0] (V0 m c (Proc.devRef .tc main_arg6)) transposes_S200x200_S200x200_1_0) bitsLt_bf16_f32
  read_later_lines

set_option maxHeartbeats 8000000 in
theorem V48 (c : Dev nD) : (V m c main_v48 : FVec Ideal S200x200 .bf16)
    = truncf (F := Ideal) .bf16 (transpose S200x200 [1, 0] (V m c main_arg8 : FVec Ideal S200x200 .f32) transposes_S200x200_S200x200_1_0) bitsLt_bf16_f32 := by
  show (V0 m c (Proc.devRef .tc main_v48) : FVec Ideal S200x200 .bf16) = truncf (F := Ideal) .bf16 (transpose S200x200 [1, 0] (V0 m c (Proc.devRef .tc main_arg8)) transposes_S200x200_S200x200_1_0) bitsLt_bf16_f32
  read_later_lines

set_option maxHeartbeats 8000000 in
/-- The fourth hidden layer's weights, transposed (the narrowing is among the last 13 lines). -/
theorem V49 (c : Dev nD) : (V m c main_v49 : FVec Ideal S200x200 .f32)
    = transpose S200x200 [1, 0] (V m c main_arg10 : FVec Ideal S200x200 .f32) transposes_S200x200_S200x200_1_0 := by
  show (V0 m c (Proc.devRef .tc main_v49) : FVec Ideal S200x200 .f32) = transpose S200x200 [1, 0] (V0 m c (Proc.devRef .tc main_arg10)) transposes_S200x200_S200x200_1_0
  read_later_lines

set_option maxHeartbeats 4000000 in
theorem V50 (c : Dev nD) : (V m c main_v50 : FVec Ideal S200x200 .bf16)
    = truncf (F := Ideal) .bf16 (V m c main_v49 : FVec Ideal S200x200 .f32) bitsLt_bf16_f32 := by
  show (V0 m c (Proc.devRef .tc main_v50) : FVec Ideal S200x200 .bf16) = truncf (F := Ideal) .bf16 (V0 m c (Proc.devRef .tc main_v49)) bitsLt_bf16_f32
  read_last_lines

set_option maxHeartbeats 8000000 in
theorem V52 (c : Dev nD) : (V m c main_v52 : FVec Ideal S200x200 .bf16)
    = truncf (F := Ideal) .bf16 (transpose S200x200 [1, 0] (V m c main_arg12 : FVec Ideal S200x200 .f32) transposes_S200x200_S200x200_1_0) bitsLt_bf16_f32 := by
  show (V0 m c (Proc.devRef .tc main_v52) : FVec Ideal S200x200 .bf16) = truncf (F := Ideal) .bf16 (transpose S200x200 [1, 0] (V0 m c (Proc.devRef .tc main_arg12)) transposes_S200x200_S200x200_1_0) bitsLt_bf16_f32
  read_last_lines

set_option maxHeartbeats 8000000 in
theorem V54 (c : Dev nD) : (V m c main_v54 : FVec Ideal S200x200 .bf16)
    = truncf (F := Ideal) .bf16 (transpose S200x200 [1, 0] (V m c main_arg14 : FVec Ideal S200x200 .f32) transposes_S200x200_S200x200_1_0) bitsLt_bf16_f32 := by
  show (V0 m c (Proc.devRef .tc main_v54) : FVec Ideal S200x200 .bf16) = truncf (F := Ideal) .bf16 (transpose S200x200 [1, 0] (V0 m c (Proc.devRef .tc main_arg14)) transposes_S200x200_S200x200_1_0) bitsLt_bf16_f32
  read_last_lines

end Cert.KernelIdeal.HostPrefix

end
-- ==== Proof.HostBiases.lean ====
/-
  The bias arrays the kernel's windows stage: each bias vector of width 200 reshaped to a [200, 1] column, and the last
  layer's one bias reshaped to [1, 1].
-/
import proofs.«175997_j7052336300581_2_alg».proof.Proof.HostSplit
import Idealize.ShloMosaic.Lib.StableHlo.Run
import Idealize.ShloMosaic.Lib.Pipeline.Value

set_option maxRecDepth 16384

noncomputable section

namespace Cert.KernelIdeal.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The first layer's bias, reshaped to a column; the six after it likewise. -/
theorem V55 (c : Dev nD) : (V m c main_v55 : FVec Ideal S200x1 .f32)
    = shapeCast S200x1 (V m c main_arg3 : FVec Ideal S200 .f32) shapeCasts_S200_S200x1 := by
  show V0 m c (Proc.devRef .tc main_v55) = shapeCast S200x1 (V0 m c (Proc.devRef .tc main_arg3)) shapeCasts_S200_S200x1
  read_last_lines

set_option maxHeartbeats 4000000 in
theorem V56 (c : Dev nD) : (V m c main_v56 : FVec Ideal S200x1 .f32)
    = shapeCast S200x1 (V m c main_arg5 : FVec Ideal S200 .f32) shapeCasts_S200_S200x1 := by
  show V0 m c (Proc.devRef .tc main_v56) = shapeCast S200x1 (V0 m c (Proc.devRef .tc main_arg5)) shapeCasts_S200_S200x1
  read_last_lines

set_option maxHeartbeats 4000000 in
theorem V57 (c : Dev nD) : (V m c main_v57 : FVec Ideal S200x1 .f32)
    = shapeCast S200x1 (V m c main_arg7 : FVec Ideal S200 .f32) shapeCasts_S200_S200x1 := by
  show V0 m c (Proc.devRef .tc main_v57) = shapeCast S200x1 (V0 m c (Proc.devRef .tc main_arg7)) shapeCasts_S200_S200x1
  read_last_lines

set_option maxHeartbeats 4000000 in
theorem V58 (c : Dev nD) : (V m c main_v58 : FVec Ideal S200x1 .f32)
    = shapeCast S200x1 (V m c main_arg9 : FVec Ideal S200 .f32) shapeCasts_S200_S200x1 := by
  show V0 m c (Proc.devRef .tc main_v58) = shapeCast S200x1 (V0 m c (Proc.devRef .tc main_arg9)) shapeCasts_S200_S200x1
  read_last_lines

set_option maxHeartbeats 4000000 in
theorem V59 (c : Dev nD) : (V m c main_v59 : FVec Ideal S200x1 .f32)
    = shapeCast S200x1 (V m c main_arg11 : FVec Ideal S200 .f32) shapeCasts_S200_S200x1 := by
  show V0 m c (Proc.devRef .tc main_v59) = shapeCast S200x1 (V0 m c (Proc.devRef .tc main_arg11)) shapeCasts_S200_S200x1
  read_last_lines

set_option maxHeartbeats 4000000 in
theorem V60 (c : Dev nD) : (V m c main_v60 : FVec Ideal S200x1 .f32)
    = shapeCast S200x1 (V m c main_arg13 : FVec Ideal S200 .f32) shapeCasts_S200_S200x1 := by
  show V0 m c (Proc.devRef .tc main_v60) = shapeCast S200x1 (V0 m c (Proc.devRef .tc main_arg13)) shapeCasts_S200_S200x1
  read_last_lines

set_option maxHeartbeats 4000000 in
theorem V61 (c : Dev nD) : (V m c main_v61 : FVec Ideal S200x1 .f32)
    = shapeCast S200x1 (V m c main_arg15 : FVec Ideal S200 .f32) shapeCasts_S200_S200x1 := by
  show V0 m c (Proc.devRef .tc main_v61) = shapeCast S200x1 (V0 m c (Proc.devRef .tc main_arg15)) shapeCasts_S200_S200x1
  read_last_lines

set_option maxHeartbeats 4000000 in
/-- The last layer's bias, reshaped to [1, 1]. -/
theorem V62 (c : Dev nD) : (V m c main_v62 : FVec Ideal S1x1 .f32)
    = shapeCast S1x1 (V m c main_arg17 : FVec Ideal S1 .f32) shapeCasts_S1_S1x1 := by
  show V0 m c (Proc.devRef .tc main_v62) = shapeCast S1x1 (V0 m c (Proc.devRef .tc main_arg17)) shapeCasts_S1_S1x1
  read_last_lines

end Cert.KernelIdeal.HostPrefix

end
-- ==== Proof.HostAggregate.lean ====
/-
  The aggregated node feature is one function of the node features and the edge list in both programs.

  The kernel's program and the reference compute it by the same 51 host lines (degrees by a scatter of ones over the
  edges with a self-loop added at every node, their inverse square roots gathered at both ends of every edge, the node
  features gathered at the sources and scaled, a scatter-add at the destinations). Read back from the kernel's program,
  line by line, the contents of that buffer at the region's entry are the very term the reference's stage of that name
  is; nothing about the term is used.
-/
import proofs.«175997_j7052336300581_2_alg».proof.Proof.Gen.KernelIdeal.Frame
import proofs.«175997_j7052336300581_2_alg».proof.Proof.Gen.ReferenceIdeal.Read
import Idealize.ShloMosaic.Lib.StableHlo.Run

set_option maxRecDepth 16384

noncomputable section

namespace Cert.KernelIdeal.HostAggregate

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 40000000 in
/-- The aggregated feature as the region finds it is the reference's stage, at the kernel's own arguments. -/
theorem V40 (c : Dev nD) : (V m c main_v40 : FVec Ideal S262144x1 .f32)
    = Cert.ReferenceIdeal.Read.val_main_v40 (F := Ideal) (m ((c : Thread nD τ).loc main_arg0)) (m ((c : Thread nD τ).loc main_arg1)) := by
  dsimp only [V, V0]
  simp only [hostOps0, List.flatten_cons, List.flatten_nil, List.append_nil, List.cons_append, List.nil_append]
  after_results_simp <;> rfl

end Cert.KernelIdeal.HostAggregate

end
-- ==== Proof.RefValue.lean ====
/-
  The reference's result, read at one node.

  The reference keeps the nodes on the rows: its activations are [262144, 200] arrays whose row `n` belongs to node
  `n`. A layer multiplies the rows by a [200, 200] weight matrix on the right — entry `(n, j)` is the sum over `k` of
  `v (n, k) * W (k, j)` —, adds the bias vector to every row and takes the ramp; the first layer's contraction runs over
  the one column of the [262144, 1] input, the last layer's result has one column, and the logistic function is spelt
  `1 / (1 + exp (-y))`. Row `n` of every layer depends on row `n` of the layer before only. With the factors of each
  product swapped, row `n` of the result is the perceptron `Cert.Mlp.mlp` at the aggregated feature of node `n`; how that
  feature is computed from the graph is not looked into.
-/
import proofs.«175997_j7052336300581_2_alg».proof.Proof.Gen.ReferenceIdeal.Read
import proofs.«175997_j7052336300581_2_alg».proof.Proof.LibPlainDot
import proofs.«175997_j7052336300581_2_alg».proof.Proof.MlpSpec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Mlp

/-- The eight layers' parameters as the reference's arguments hold them: `W j k` is the weight from input `k` to output
    `j`, stored at row `k`, column `j`. -/
def refParams (x2 : FVec Ideal S1x200 .f32) (x3 : FVec Ideal S200 .f32) (x4 : FVec Ideal S200x200 .f32) (x5 : FVec Ideal S200 .f32)
    (x6 : FVec Ideal S200x200 .f32) (x7 : FVec Ideal S200 .f32) (x8 : FVec Ideal S200x200 .f32) (x9 : FVec Ideal S200 .f32)
    (x10 : FVec Ideal S200x200 .f32) (x11 : FVec Ideal S200 .f32) (x12 : FVec Ideal S200x200 .f32) (x13 : FVec Ideal S200 .f32)
    (x14 : FVec Ideal S200x200 .f32) (x15 : FVec Ideal S200 .f32) (x16 : FVec Ideal S200x1 .f32) (x17 : FVec Ideal S1 .f32) : Params 200 where
  w0 := fun j => x2 (ix2 (0 : Fin 1) j)
  b0 := fun j => x3 (ix1 j)
  W1 := fun j k => x4 (ix2 k j)
  b1 := fun j => x5 (ix1 j)
  W2 := fun j k => x6 (ix2 k j)
  b2 := fun j => x7 (ix1 j)
  W3 := fun j k => x8 (ix2 k j)
  b3 := fun j => x9 (ix1 j)
  W4 := fun j k => x10 (ix2 k j)
  b4 := fun j => x11 (ix1 j)
  W5 := fun j k => x12 (ix2 k j)
  b5 := fun j => x13 (ix1 j)
  W6 := fun j k => x14 (ix2 k j)
  b6 := fun j => x15 (ix1 j)
  w7 := fun k => x16 (ix2 k (0 : Fin 1))
  b7 := x17 (ix1 (0 : Fin 1))

/-- The bias vector, made a row and then repeated over the nodes, reads its own column's entry. -/
theorem bias_apply (b : FVec Ideal S200 .f32) (n : Fin 262144) (j : Fin 200) :
    broadcastInDim S262144x200 ![0, 1] bcast_S1x200_S262144x200_0_1 (broadcastInDim S1x200 ![1] bcast_S200_S1x200_1 b) (ix2 n j)
      = b (ix1 j) := by
  refine (broadcastInDim_apply _ bcast_S1x200_S262144x200_0_1 _ (ix2 n j) (ix2 (0 : Fin 1) j) (fun a => match a with
    | ⟨0, _⟩ => by show 0 = if (1 : Nat) = 1 then 0 else n.val; rw [if_pos rfl]
    | ⟨1, _⟩ => by show j.val = if (200 : Nat) = 1 then 0 else j.val; rw [if_neg (by decide)])).trans ?_
  exact broadcastInDim_apply _ bcast_S200_S1x200_1 b (ix2 (0 : Fin 1) j) (ix1 j) (fun a => match a with
    | ⟨0, _⟩ => by show j.val = if (200 : Nat) = 1 then 0 else j.val; rw [if_neg (by decide)])

/-- The ramp's floor: the zero word repeated over the array. -/
theorem floor_apply (i : S262144x200.Idx) :
    broadcastInDim S262144x200 ![] bcast_S_S262144x200 (constant (F := Ideal) S_ .f32 0x00000000#32) i = 0 := by
  refine (broadcastInDim_apply _ bcast_S_S262144x200 _ i ix0 (fun a => a.elim0)).trans ?_
  exact Ideal.ofBits_zero_f32

/-- The first layer at entry `(n, j)`: the contraction runs over the input's one column. -/
theorem first_apply (a : FVec Ideal S262144x1 .f32) (W : FVec Ideal S1x200 .f32) (b : FVec Ideal S200 .f32) (n : Fin 262144) (j : Fin 200) :
    maximumf (addf (Host.dotGeneral (F := Ideal) dot_S262144x1_S1x200_S262144x200_1_0_0_1_n_n none a W)
        (broadcastInDim S262144x200 ![0, 1] bcast_S1x200_S262144x200_0_1 (broadcastInDim S1x200 ![1] bcast_S200_S1x200_1 b)))
      (broadcastInDim S262144x200 ![] bcast_S_S262144x200 (constant (F := Ideal) S_ .f32 0x00000000#32)) (ix2 n j)
      = first (fun j => W (ix2 (0 : Fin 1) j)) (fun j => b (ix1 j)) (a (ix2 n (0 : Fin 1))) j := by
  show max (Host.dotGeneral (F := Ideal) dot_S262144x1_S1x200_S262144x200_1_0_0_1_n_n none a W (ix2 n j)
      + broadcastInDim S262144x200 ![0, 1] bcast_S1x200_S262144x200_0_1 (broadcastInDim S1x200 ![1] bcast_S200_S1x200_1 b) (ix2 n j))
    (broadcastInDim S262144x200 ![] bcast_S_S262144x200 (constant (F := Ideal) S_ .f32 0x00000000#32) (ix2 n j)) = _
  rw [bias_apply, floor_apply]
  have hd : Host.dotGeneral (F := Ideal) dot_S262144x1_S1x200_S262144x200_1_0_0_1_n_n none a W (ix2 n j)
      = ∑ k : Fin 1, a (ix2 n k) * W (ix2 k j) :=
    (congrFun (Cert.LibPlainDot.dotGeneral_plain (M := 262144) (K := 1) (N := 200) none _ a W) (ix2 n j)).trans
      (Cert.LibPlainDot.rowsTimes_apply a W n j)
  rw [hd, Fin.sum_univ_one, mul_comm]
  rfl

/-- A hidden layer at entry `(n, j)`, over activations whose row `n` is `v`. -/
theorem hidden_apply (prev : FVec Ideal S262144x200 .f32) (W : FVec Ideal S200x200 .f32) (b : FVec Ideal S200 .f32) (n : Fin 262144)
    (v : Fin 200 → EReal) (hv : ∀ k, prev (ix2 n k) = v k) (j : Fin 200) :
    maximumf (addf (Host.dotGeneral (F := Ideal) dot_S262144x200_S200x200_S262144x200_1_0_0_1_n_n none prev W)
        (broadcastInDim S262144x200 ![0, 1] bcast_S1x200_S262144x200_0_1 (broadcastInDim S1x200 ![1] bcast_S200_S1x200_1 b)))
      (broadcastInDim S262144x200 ![] bcast_S_S262144x200 (constant (F := Ideal) S_ .f32 0x00000000#32)) (ix2 n j)
      = dense (fun j k => W (ix2 k j)) (fun j => b (ix1 j)) v j := by
  show max (Host.dotGeneral (F := Ideal) dot_S262144x200_S200x200_S262144x200_1_0_0_1_n_n none prev W (ix2 n j)
      + broadcastInDim S262144x200 ![0, 1] bcast_S1x200_S262144x200_0_1 (broadcastInDim S1x200 ![1] bcast_S200_S1x200_1 b) (ix2 n j))
    (broadcastInDim S262144x200 ![] bcast_S_S262144x200 (constant (F := Ideal) S_ .f32 0x00000000#32) (ix2 n j)) = _
  rw [bias_apply, floor_apply]
  have hd : Host.dotGeneral (F := Ideal) dot_S262144x200_S200x200_S262144x200_1_0_0_1_n_n none prev W (ix2 n j)
      = ∑ k : Fin 200, prev (ix2 n k) * W (ix2 k j) :=
    (congrFun (Cert.LibPlainDot.dotGeneral_plain (M := 262144) (K := 200) (N := 200) none _ prev W) (ix2 n j)).trans
      (Cert.LibPlainDot.rowsTimes_apply prev W n j)
  rw [hd]
  unfold dense
  refine congrArg (fun s => max (s + b (ix1 j)) 0) (Finset.sum_congr rfl fun k _ => ?_)
  rw [hv k, mul_comm]

/-- The last layer and the logistic function at node `n`, over activations whose row `n` is `v`. -/
theorem last_apply (prev : FVec Ideal S262144x200 .f32) (W : FVec Ideal S200x1 .f32) (b : FVec Ideal S1 .f32) (n : Fin 262144)
    (v : Fin 200 → EReal) (hv : ∀ k, prev (ix2 n k) = v k) :
    Host.divf (broadcastInDim S262144x1 ![] bcast_S_S262144x1 (constant (F := Ideal) S_ .f32 0x3F800000#32))
      (addf (broadcastInDim S262144x1 ![] bcast_S_S262144x1 (constant (F := Ideal) S_ .f32 0x3F800000#32))
        (Host.exp (Host.negf (addf (Host.dotGeneral (F := Ideal) dot_S262144x200_S200x1_S262144x1_1_0_0_1_n_n none prev W)
          (broadcastInDim S262144x1 ![0, 1] bcast_S1x1_S262144x1_0_1 (broadcastInDim S1x1 ![1] bcast_S1_S1x1_1 b))))))
      (ix2 n (0 : Fin 1))
      = last (fun k => W (ix2 k (0 : Fin 1))) (b (ix1 (0 : Fin 1))) v := by
  have hone : broadcastInDim S262144x1 ![] bcast_S_S262144x1 (constant (F := Ideal) S_ .f32 0x3F800000#32) (ix2 n (0 : Fin 1))
      = Ideal.ofBits .f32 0x3F800000#32 :=
    broadcastInDim_apply _ bcast_S_S262144x1 _ (ix2 n (0 : Fin 1)) ix0 (fun a => a.elim0)
  have hb : broadcastInDim S262144x1 ![0, 1] bcast_S1x1_S262144x1_0_1 (broadcastInDim S1x1 ![1] bcast_S1_S1x1_1 b) (ix2 n (0 : Fin 1))
      = b (ix1 (0 : Fin 1)) := by
    refine (broadcastInDim_apply _ bcast_S1x1_S262144x1_0_1 _ (ix2 n (0 : Fin 1)) (ix2 (0 : Fin 1) (0 : Fin 1)) (fun a => match a with
      | ⟨0, _⟩ => by show 0 = if (1 : Nat) = 1 then 0 else n.val; rw [if_pos rfl]
      | ⟨1, _⟩ => by show 0 = if (1 : Nat) = 1 then 0 else 0; rw [if_pos rfl])).trans ?_
    exact broadcastInDim_apply _ bcast_S1_S1x1_1 b (ix2 (0 : Fin 1) (0 : Fin 1)) (ix1 (0 : Fin 1)) (fun a => match a with
      | ⟨0, _⟩ => by show 0 = if (1 : Nat) = 1 then 0 else 0; rw [if_pos rfl])
  have hd : Host.dotGeneral (F := Ideal) dot_S262144x200_S200x1_S262144x1_1_0_0_1_n_n none prev W (ix2 n (0 : Fin 1))
      = ∑ k : Fin 200, prev (ix2 n k) * W (ix2 k (0 : Fin 1)) :=
    (congrFun (Cert.LibPlainDot.dotGeneral_plain (M := 262144) (K := 200) (N := 1) none _ prev W) (ix2 n (0 : Fin 1))).trans
      (Cert.LibPlainDot.rowsTimes_apply prev W n (0 : Fin 1))
  show Ideal.div (broadcastInDim S262144x1 ![] bcast_S_S262144x1 (constant (F := Ideal) S_ .f32 0x3F800000#32) (ix2 n (0 : Fin 1)))
    (broadcastInDim S262144x1 ![] bcast_S_S262144x1 (constant (F := Ideal) S_ .f32 0x3F800000#32) (ix2 n (0 : Fin 1))
      + Ideal.exp (-(Host.dotGeneral (F := Ideal) dot_S262144x200_S200x1_S262144x1_1_0_0_1_n_n none prev W (ix2 n (0 : Fin 1))
        + broadcastInDim S262144x1 ![0, 1] bcast_S1x1_S262144x1_0_1 (broadcastInDim S1x1 ![1] bcast_S1_S1x1_1 b) (ix2 n (0 : Fin 1))))) = _
  rw [hone, hb, hd, logistic_spelt]
  unfold last
  refine congrArg (fun s => Ideal.logistic (s + b (ix1 (0 : Fin 1)))) (Finset.sum_congr rfl fun k _ => ?_)
  rw [hv k, mul_comm]

section

variable (x0 : FVec Ideal S262144x1 .f32) (x1 : (⟨S2x2097152, .i32⟩ : BufTy).Contents (Elt Ideal))
  (x2 : FVec Ideal S1x200 .f32) (x3 : FVec Ideal S200 .f32) (x4 : FVec Ideal S200x200 .f32) (x5 : FVec Ideal S200 .f32)
  (x6 : FVec Ideal S200x200 .f32) (x7 : FVec Ideal S200 .f32) (x8 : FVec Ideal S200x200 .f32) (x9 : FVec Ideal S200 .f32)
  (x10 : FVec Ideal S200x200 .f32) (x11 : FVec Ideal S200 .f32) (x12 : FVec Ideal S200x200 .f32) (x13 : FVec Ideal S200 .f32)
  (x14 : FVec Ideal S200x200 .f32) (x15 : FVec Ideal S200 .f32) (x16 : FVec Ideal S200x1 .f32) (x17 : FVec Ideal S1 .f32)

/-- THE REFERENCE'S RESULT at a node is the perceptron of its arguments' parameters at that node's aggregated feature
    (the stage before the first layer, taken as it is). -/
theorem result_apply (i : S262144x1.Idx) :
    val_main_v85 (F := Ideal) x0 x1 x2 x3 x4 x5 x6 x7 x8 x9 x10 x11 x12 x13 x14 x15 x16 x17 i
      = mlp (refParams x2 x3 x4 x5 x6 x7 x8 x9 x10 x11 x12 x13 x14 x15 x16 x17) (val_main_v40 (F := Ideal) x0 x1 i) := by
  obtain ⟨n, u, rfl⟩ : ∃ (n : Fin 262144) (u : Fin 1), i = ix2 n u := ⟨i 0, i 1, eq_ix2 i⟩
  obtain rfl : u = 0 := Subsingleton.elim _ _
  have h45 : ∀ k, val_main_v45 (F := Ideal) x0 x1 x2 x3 (ix2 n k) = _ :=
    fun k => first_apply (val_main_v40 (F := Ideal) x0 x1) x2 x3 n k
  have h50 : ∀ k, val_main_v50 (F := Ideal) x0 x1 x2 x3 x4 x5 (ix2 n k) = _ :=
    fun k => hidden_apply (val_main_v45 (F := Ideal) x0 x1 x2 x3) x4 x5 n _ h45 k
  have h55 : ∀ k, val_main_v55 (F := Ideal) x0 x1 x2 x3 x4 x5 x6 x7 (ix2 n k) = _ :=
    fun k => hidden_apply (val_main_v50 (F := Ideal) x0 x1 x2 x3 x4 x5) x6 x7 n _ h50 k
  have h60 : ∀ k, val_main_v60 (F := Ideal) x0 x1 x2 x3 x4 x5 x6 x7 x8 x9 (ix2 n k) = _ :=
    fun k => hidden_apply (val_main_v55 (F := Ideal) x0 x1 x2 x3 x4 x5 x6 x7) x8 x9 n _ h55 k
  have h65 : ∀ k, val_main_v65 (F := Ideal) x0 x1 x2 x3 x4 x5 x6 x7 x8 x9 x10 x11 (ix2 n k) = _ :=
    fun k => hidden_apply (val_main_v60 (F := Ideal) x0 x1 x2 x3 x4 x5 x6 x7 x8 x9) x10 x11 n _ h60 k
  have h70 : ∀ k, val_main_v70 (F := Ideal) x0 x1 x2 x3 x4 x5 x6 x7 x8 x9 x10 x11 x12 x13 (ix2 n k) = _ :=
    fun k => hidden_apply (val_main_v65 (F := Ideal) x0 x1 x2 x3 x4 x5 x6 x7 x8 x9 x10 x11) x12 x13 n _ h65 k
  have h75 : ∀ k, val_main_v75 (F := Ideal) x0 x1 x2 x3 x4 x5 x6 x7 x8 x9 x10 x11 x12 x13 x14 x15 (ix2 n k) = _ :=
    fun k => hidden_apply (val_main_v70 (F := Ideal) x0 x1 x2 x3 x4 x5 x6 x7 x8 x9 x10 x11 x12 x13) x14 x15 n _ h70 k
  exact last_apply (val_main_v75 (F := Ideal) x0 x1 x2 x3 x4 x5 x6 x7 x8 x9 x10 x11 x12 x13 x14 x15) x16 x17 n _ h75

end

end Cert.ReferenceIdeal.RefValue

end
-- ==== Proof.LibRowColumn.lean ====
/-
  A row reshaped to a column, read at an index.

  A `[1, a]` row and an `[a, 1]` column hold their entries at the same row-major positions `0, 1, …, a - 1`, so the
  column's entry `(i, 0)` is the row's entry `(0, i)`.
-/
import Idealize.ShloMosaic.Lib.Pipeline.Value
import Idealize.ShloMosaic.Lib.ValueIdx

namespace Cert.LibRowColumn

open Idealize.ShloMosaic Idealize.ShloMosaic.ValueIdx

/-- A `[1, a]` row cast to an `[a, 1]` column reads, at `(i, u)`, the operand at `(0, i)`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Cert.LibRowColumn
-- ==== Proof.Bridge.lean ====
/-
  The two results are one array.

  The kernel's program ends with the result row [1, 262144] reshaped to a column: entry `(n, 0)` of the result is lane
  `n` of the row, the perceptron — with the parameters the window arrays hold — of lane `n` of the node row, which is
  entry `(n, 0)` of the aggregated feature. The reference's entry `(n, 0)` is the perceptron, with the parameters the
  arguments hold, of the same entry of the same aggregated feature. The two parameter sets agree entry by entry: a
  transposed weight matrix read at `(j, k)` is the argument at `(k, j)`, a bias column at `(j, 0)` is the bias vector at
  `j`, and narrowing a weight is the identity on the extended reals.
-/
import proofs.«175997_j7052336300581_2_alg».proof.Proof.KernelArray
import proofs.«175997_j7052336300581_2_alg».proof.Proof.HostRow
import proofs.«175997_j7052336300581_2_alg».proof.Proof.HostWeights
import proofs.«175997_j7052336300581_2_alg».proof.Proof.HostBiases
import proofs.«175997_j7052336300581_2_alg».proof.Proof.HostAggregate
import proofs.«175997_j7052336300581_2_alg».proof.Proof.RefValue
import proofs.«175997_j7052336300581_2_alg».proof.Proof.LibColumns
import proofs.«175997_j7052336300581_2_alg».proof.Proof.LibRowColumn
import Idealize.ShloMosaic.Lib.ValueLayout
import Idealize.ShloMosaic.Lib.ValueIdx

noncomputable section

namespace Cert.Bridge

open Idealize.ShloMosaic Idealize.ShloMosaic.TcCoe Idealize.SL.Sem Idealize.ShloMosaic.ValueIdx Cert.Mlp
open Cert.KernelIdeal Cert.KernelIdeal.Gen

variable (m : (ℓ : Loc nD τ sig) → Buf (Elt Ideal) ℓ)

/-- The parameters the window arrays hold are the arguments'. -/
theorem params_eq (c : Dev nD) :
    Whole.arrParams m c = Cert.ReferenceIdeal.RefValue.refParams
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15)) (m ((c : Thread nD τ).loc main_arg16))
      (m ((c : Thread nD τ).loc main_arg17)) := by
  unfold Whole.arrParams Payload.blockParams Cert.ReferenceIdeal.RefValue.refParams
  simp only [Params.mk.injEq]
  refine ⟨funext fun j => ?_, funext fun j => ?_, funext fun j => funext fun k => ?_, funext fun j => ?_,
    funext fun j => funext fun k => ?_, funext fun j => ?_, funext fun j => funext fun k => ?_, funext fun j => ?_,
    funext fun j => funext fun k => ?_, funext fun j => ?_, funext fun j => funext fun k => ?_, funext fun j => ?_,
    funext fun j => funext fun k => ?_, funext fun j => ?_, funext fun k => ?_, ?_⟩
  · rw [HostPrefix.V42 m c, V_main_arg2 m c]; exact transpose_ix2_apply _ _ j (0 : Fin 1)
  · rw [HostPrefix.V55 m c, V_main_arg3 m c]; exact Cert.Columns.shapeCast_a_a1_apply _ _ j (0 : Fin 1)
  · rw [HostPrefix.V44 m c, V_main_arg4 m c]; exact transpose_ix2_apply _ _ j k
  · rw [HostPrefix.V56 m c, V_main_arg5 m c]; exact Cert.Columns.shapeCast_a_a1_apply _ _ j (0 : Fin 1)
  · rw [HostPrefix.V46 m c, V_main_arg6 m c]; exact transpose_ix2_apply _ _ j k
  · rw [HostPrefix.V57 m c, V_main_arg7 m c]; exact Cert.Columns.shapeCast_a_a1_apply _ _ j (0 : Fin 1)
  · rw [HostPrefix.V48 m c, V_main_arg8 m c]; exact transpose_ix2_apply _ _ j k
  · rw [HostPrefix.V58 m c, V_main_arg9 m c]; exact Cert.Columns.shapeCast_a_a1_apply _ _ j (0 : Fin 1)
  · rw [HostPrefix.V50 m c, HostPrefix.V49 m c, V_main_arg10 m c]; exact transpose_ix2_apply _ _ j k
  · rw [HostPrefix.V59 m c, V_main_arg11 m c]; exact Cert.Columns.shapeCast_a_a1_apply _ _ j (0 : Fin 1)
  · rw [HostPrefix.V52 m c, V_main_arg12 m c]; exact transpose_ix2_apply _ _ j k
  · rw [HostPrefix.V60 m c, V_main_arg13 m c]; exact Cert.Columns.shapeCast_a_a1_apply _ _ j (0 : Fin 1)
  · rw [HostPrefix.V54 m c, V_main_arg14 m c]; exact transpose_ix2_apply _ _ j k
  · rw [HostPrefix.V61 m c, V_main_arg15 m c]; exact Cert.Columns.shapeCast_a_a1_apply _ _ j (0 : Fin 1)
  · rw [V_main_arg16 m c]
  · rw [HostPrefix.V62 m c, V_main_arg17 m c]; exact Cert.Columns.shapeCast_a_a1_apply _ _ (0 : Fin 1) (0 : Fin 1)

/-- THE TWO RESULTS: the reference's result term at the kernel's arguments is the kernel's result row, reshaped. -/
theorem value_eq (c : Dev nD) :
    Cert.ReferenceIdeal.Read.val_main_v85 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      = shapeCast S262144x1 (Whole.row m c) shapeCasts_S1x262144_S262144x1 := by
  funext i
  obtain ⟨n, u, rfl⟩ : ∃ (n : Fin 262144) (u : Fin 1), i = ix2 n u := ⟨i 0, i 1, eq_ix2 i⟩
  obtain rfl : u = 0 := Subsingleton.elim _ _
  rw [Cert.ReferenceIdeal.RefValue.result_apply, Cert.LibRowColumn.shapeCast_1a_a1_apply]
  unfold Whole.row
  rw [params_eq m c, HostPrefix.V41 m c, Cert.Columns.shapeCast_a1_1a_apply, HostAggregate.V40 m c]

end Cert.Bridge

end
-- ==== Proof.lean ====
/-
  A graph network's node perceptron, kernel against reference, on the extended reals.

  Both programs first aggregate each node's feature over its neighbours (the same host lines in both), then apply to
  every node, independently, an eight-layer perceptron of widths 1, 200 (seven times), 1 with the ramp between layers and
  the logistic function at the end. The reference keeps the nodes on the rows and multiplies by each weight matrix on the
  right; the kernel keeps 8192 nodes at a time on the lanes, multiplies by the transposed weights on the left, writes the
  first layer as an outer product and the last as a sum down the sublanes, and narrows the activations between layers,
  which is the identity on the extended reals. Entry by entry both results are one function, `Cert.Mlp.mlp`, of the
  node's aggregated feature: the sums are the same sums with the factors of each product swapped, and addition and
  multiplication of extended reals are commutative with no finiteness assumed. The frames are the generated ones (the
  reference's is its generated run with the result dropped), and the one rewrite of the idealization, widening after
  narrowing, is the identity at the ideal values and the rounding through the narrow format at the word level.
-/
import proofs.«175997_j7052336300581_2_alg».proof.Defs
import proofs.«175997_j7052336300581_2_alg».proof.Proof.Gen.Kernel
import proofs.«175997_j7052336300581_2_alg».proof.Proof.Gen.Kernel.Skeleton
import proofs.«175997_j7052336300581_2_alg».proof.Proof.Gen.Kernel.Launch
import proofs.«175997_j7052336300581_2_alg».proof.Proof.Gen.Kernel.Points
import proofs.«175997_j7052336300581_2_alg».proof.Proof.Gen.Kernel.Frame
import proofs.«175997_j7052336300581_2_alg».proof.Proof.Gen.KernelIdeal
import proofs.«175997_j7052336300581_2_alg».proof.Proof.Gen.KernelIdeal.Skeleton
import proofs.«175997_j7052336300581_2_alg».proof.Proof.Gen.KernelIdeal.Launch
import proofs.«175997_j7052336300581_2_alg».proof.Proof.Gen.KernelIdeal.Points
import proofs.«175997_j7052336300581_2_alg».proof.Proof.Gen.KernelIdeal.Frame
import proofs.«175997_j7052336300581_2_alg».proof.Proof.Gen.ReferenceIdeal
import proofs.«175997_j7052336300581_2_alg».proof.Proof.Gen.Pre_finite_inputs
import proofs.«175997_j7052336300581_2_alg».proof.Proof.Gen.ReferenceIdeal.Run
import proofs.«175997_j7052336300581_2_alg».proof.Proof.Gen.ReferenceIdeal.Read
import proofs.«175997_j7052336300581_2_alg».proof.Proof.KernelArray
import proofs.«175997_j7052336300581_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Widening after narrowing a [200, 8192] array: the identity at the ideal values. -/
theorem preserves : Cert.preserves_Kernel_KernelIdeal := IdealRules.truncf_extf.statement _ .f32 .bf16

/-- From memories agreeing on the arguments both programs end with the result row of the perceptron, reshaped to a
    column: the kernel's by its run read back, the reference's by its generated run and `Cert.Bridge.value_eq`. -/
theorem algebraic : Cert.algebraic_KernelIdeal_ReferenceIdeal := by
  intro m ρ m' ρ' _ hagree
  refine ⟨fun c => shapeCast Cert.KernelIdeal.S262144x1 (Cert.KernelIdeal.Whole.row m c)
    Cert.KernelIdeal.Gen.shapeCasts_S1x262144_S262144x1, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17⟩ := hagree c
  rw [Cert.ReferenceIdeal.Read.val_main_v85_eq, a0, a1, a2, a3, a4, a5, a6, a7, a8, a9, a10, a11, a12, a13, a14, a15, a16, a17]
  exact Cert.Bridge.value_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
